-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x32 .f32) (main_arg3 : FVec F S32 .f32) (main_arg4 : FVec F S32x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg2
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S4000x512 : Shape := ⟨2, ![4000, 512]⟩
abbrev S4000x32 : Shape := ⟨2, ![4000, 32]⟩
abbrev S1700000x32 : Shape := ⟨2, ![1700000, 32]⟩
abbrev S1x32 : Shape := ⟨2, ![1, 32]⟩
abbrev S100000x16 : Shape := ⟨2, ![100000, 16]⟩
abbrev S4000x16 : Shape := ⟨2, ![4000, 16]⟩
abbrev S1700000x16 : Shape := ⟨2, ![1700000, 16]⟩
abbrev S1x16 : Shape := ⟨2, ![1, 16]⟩
abbrev S4000 : Shape := ⟨1, ![4000]⟩
abbrev S4000x1 : Shape := ⟨2, ![4000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x32, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S1700000x1, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x16, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x16, .f32⟩
  | .hbm, ⟨75, _⟩ => ⟨S1700000x1, .f32⟩
  | .hbm, ⟨76, _⟩ => ⟨S1700000x16, .f32⟩
  | .hbm, ⟨77, _⟩ => ⟨S1700000x16, .f32⟩
  | .hbm, ⟨78, _⟩ => ⟨S_, .f32⟩
  | .hbm, ⟨79, _⟩ => ⟨S100000x16, .f32⟩
  | .hbm, ⟨80, _⟩ => ⟨S1700000x1, .i32⟩
  | .hbm, ⟨81, _⟩ => ⟨S100000x16, .f32⟩
  | .hbm, ⟨82, _⟩ => ⟨S1x16, .f32⟩
  | .hbm, ⟨83, _⟩ => ⟨S100000x16, .f32⟩
  | .local _ .vmem, ⟨0, _⟩ => ⟨S4000x512, .f32⟩
  | .local _ .vmem, ⟨1, _⟩ => ⟨S4000x512, .f32⟩
  | .local _ .vmem, ⟨2, _⟩ => ⟨S512x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S1x32, .f32⟩
  | .local _ .vmem, ⟨8, _⟩ => ⟨S4000x32, .f32⟩
  | .local _ .vmem, ⟨9, _⟩ => ⟨S4000x32, .f32⟩
  | .local _ .vmem, ⟨10, _⟩ => ⟨S4000x32, .f32⟩
  | .local _ .vmem, ⟨11, _⟩ => ⟨S4000x32, .f32⟩
  | .local _ .vmem, ⟨12, _⟩ => ⟨S32x16, .f32⟩
  | .local _ .vmem, ⟨13, _⟩ => ⟨S4000x16, .f32⟩
  | .local _ .vmem, ⟨14, _⟩ => ⟨S4000x16, .f32⟩
  | .local _ .vmem, ⟨15, _⟩ => ⟨S4000x16, .f32⟩
  | .local _ .vmem, ⟨16, _⟩ => ⟨S4000x16, .f32⟩
  | .local _ .vmem, ⟨17, _⟩ => ⟨S1x16, .f32⟩
  | .local _ .vmem, ⟨18, _⟩ => ⟨S4000x16, .f32⟩
  | .local _ .vmem, ⟨19, _⟩ => ⟨S4000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S4000x32_S4000x32_0_0 : ∀ a, (![0, 0] : Fin 2 → Nat) a + S4000x32.size a ≤ S4000x32.size a
  h_S4000x32 : 0 < S4000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  shapeCasts_S4000x32_S4000x32 : S4000x32.ShapeCasts S4000x32
  inb_S32x16_S32x16_0_0 : ∀ a, (![0, 0] : Fin 2 → Nat) a + S32x16.size a ≤ S32x16.size a
  h_S32x16 : 0 < S32x16.numel
  inb_S4000x16_S4000x16_0_0 : ∀ a, (![0, 0] : Fin 2 → Nat) a + S4000x16.size a ≤ S4000x16.size a
  h_S4000x16 : 0 < S4000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  shapeCasts_S4000x16_S4000x16 : S4000x16.ShapeCasts S4000x16
  reduces_S4000x16_S4000 : S4000x16.Reduces [1] S4000
  shapeCasts_S4000_S4000x1 : S4000.ShapeCasts S4000x1
  broadcasts_S4000x1_S4000x16 : S4000x1.Broadcasts S4000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x512_S512x32_S4000x32_1_0_0_1_n_n_wf : DotDims.WF S4000x512 S512x32 S4000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S4000x32_S32x16_S4000x16_1_0_0_1_n_n_wf : DotDims.WF S4000x32 S32x16 S4000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x16.size a ≤ S100000x16.size a
  hwx2_2 : ∀ i : grid2.Coords, EltTy.bits .f32 = 32 ∨ (Rect.block (s := S100000x16) S4000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x16.size a ≤ S100000x16.size a
  hwx3_2 : ∀ i : grid3.Coords, EltTy.bits .f32 = 32 ∨ (Rect.block (s := S100000x16) S4000x16.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x512_S512x32_S4000x32_1_0_0_1_n_n : DotDims S4000x512 S512x32 S4000x32 where
  lhsContracting := [1]
  rhsContracting := [0]
  lhsNonContracting := [0]
  rhsNonContracting := [1]
  lhsBatch := []
  rhsBatch := []
  wf := dot_S4000x512_S512x32_S4000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S4000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S100000x32 : Shape := ⟨2, ![100000, 32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x1600000, .i32⟩
  | 2 => ⟨S512x32, .f32⟩
  | 3 => ⟨S32, .f32⟩
  | 4 => ⟨S32x16, .f32⟩
  | 5 => ⟨S16, .f32⟩
  | 6 => ⟨S1x1600000, .i32⟩
  | 7 => ⟨S1600000, .i32⟩
  | 8 => ⟨S1x1600000, .i32⟩
  | 9 => ⟨S1600000, .i32⟩
  | 10 => ⟨S100000x32, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x32, .f32⟩
  | 56 => ⟨S1700000x1, .f32⟩
  | 57 => ⟨S1700000x32, .f32⟩
  | 58 => ⟨S1700000x32, .f32⟩
  | 59 => ⟨S_, .f32⟩
  | 60 => ⟨S100000x32, .f32⟩
  | 61 => ⟨S1700000x1, .i32⟩
  | 62 => ⟨S100000x32, .f32⟩
  | 63 => ⟨S1x32, .f32⟩
  | 64 => ⟨S100000x32, .f32⟩
  | 65 => ⟨S100000x32, .f32⟩
  | 66 => ⟨S_, .f32⟩
  | 67 => ⟨S100000x32, .f32⟩
  | 68 => ⟨S100000x32, .f32⟩
  | 69 => ⟨S100000x16, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x16, .f32⟩
  | 115 => ⟨S1700000x1, .f32⟩
  | 116 => ⟨S1700000x16, .f32⟩
  | 117 => ⟨S1700000x16, .f32⟩
  | 118 => ⟨S_, .f32⟩
  | 119 => ⟨S100000x16, .f32⟩
  | 120 => ⟨S1700000x1, .i32⟩
  | 121 => ⟨S100000x16, .f32⟩
  | 122 => ⟨S1x16, .f32⟩
  | 123 => ⟨S100000x16, .f32⟩
  | 124 => ⟨S100000x16, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x16, .f32⟩
  | 4 => ⟨S100000x16, .f32⟩
  | 5 => ⟨S100000x16, .f32⟩
  | 6 => ⟨S_, .f32⟩
  | 7 => ⟨S100000, .f32⟩
  | 8 => ⟨S100000x1, .f32⟩
  | 9 => ⟨S100000x1, .f32⟩
  | 10 => ⟨S100000x16, .f32⟩
  | 11 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x512_S512x32_S100000x32_1_0_0_1_n_n_wf : DotDims.WF S100000x512 S512x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run, with its result named.

  The program is nine segments: three stretches of host operations, the first matrix product as a grid of 25 row blocks, a host
  stretch (the neighbourhood aggregation), the bias-and-positive-part grid, the second product's grid, a host stretch (the second
  aggregation) and the bias-and-log-softmax grid. Running the segments in order from the launch memory ends with every buffer
  that is not scratch at the contents of the last boundary, `Gen.W9`: a host stretch leaves its operations' results, a grid
  leaves each output array at what its points wrote back and every other buffer as it found it.

  Three things are owed to run the segments from a launch. At the launch nothing is owed between cores and no pipeline has
  started, so the launch's ghost state is exactly what the pipelines ask (`ghost_at_launch`). What the launch deals to a core —
  its buffers as launched, its generator register, its empty debt — is the first segment's entry state (shown where the segments are run). And the
  last segment's exit state, which holds every non-scratch buffer at `W9`, can be read against any final memory
  (`read_at_end`). With those, every weakly fair execution terminates with all those buffers at `W9` (`run_all`); read at the
  result buffer and at the six arguments, which no segment writes, that is `run`.
-/
import proofs.«123936_j77275051590253_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipelines' ghost state at a launch: no cell claimed, every launch token unspent. -/
abbrev launchGhost : UR sig nD τ := initOf (Pipeline.cells cfgs cellOf_inj) (Pipeline.launchToks cfgs cellOf_inj)

/-- A core's state when the first segment is entered: every non-scratch buffer as launched, and beside them the generator
    register at some state and an empty debt. -/
abbrev atLaunch (c : Dev nD) : sProp 𝕄 :=
  iprop(StableHlo.held (c : Thread nD τ) (Pipeline.ucRefs τ sig) (W0 m ρ c) ∗ R c)

/-- What is read of a final memory on core `c`: every non-scratch buffer holds the last boundary's contents. -/
abbrev AtEnd (c : Dev nD) (s : MemSt nD τ sig (Elt F)) : Prop :=
  ∀ b ∈ Pipeline.ucRefs τ sig, s.mem (((c : Thread nD τ)).1, b) = W9 m ρ c b

/-- The launch's ghost state is the pipelines' own, and no core needs anything more. -/
theorem ghost_at_launch :
    (ownU (launchGhost) : sProp 𝕄)
      ⊢ |={Set.univ}=> iprop(BI.own (emb₁ (launchGhost)) ∗ bigSep Finset.univ fun _ : Dev nD => (BI.emp : sProp 𝕄)) := by
  iintro Hown
  imodintro
  isplitl [Hown]
  · iapply (show (ownU (launchGhost) : sProp 𝕄) ⊢ BI.own (emb₁ (launchGhost)) from .rfl)
    iexact Hown
  · iapply (show (BI.emp : sProp 𝕄) ⊢ bigSep Finset.univ (fun _ : Dev nD => (BI.emp : sProp 𝕄)) from by
      rw [BI.bigSep_emp_const])
    iempintro

/-- The last state holds every non-scratch buffer at `W9`; held buffers agree with any memory they are held in. -/
theorem read_at_end (c : Dev nD) (s' : Phys nD τ sig (Elt F)) :
    iprop(Tₙ m ρ c ∗ SI s') ⊢ |={Set.univ}=> iprop(⌜AtEnd m ρ c s'.mem⌝ ∗ SI s') := by
  iintro ⟨⟨Hheld, -⟩, Hstate⟩
  unfold StableHlo.held
  imodintro
  iapply (pointsTo_read_all (Pipeline.ucRefs τ sig) (fun b => (((c : Thread nD τ)).1, b)) (W9 m ρ c) s')
  isplitl [Hheld] <;> iassumption

set_option backward.isDefEq.respectTransparency.types false in
/-- Every weakly fair execution terminates, nothing faulting, with every non-scratch buffer of every core at `W9`. -/
theorem run_all : θ_run defs (onTc (τ := τ) (main (F := F))) ⟨m, fun _ => 0, ρ⟩ (fun r => ∀ c : Dev nD, AtEnd m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := launchGhost)
    (hu₀ := ghost_at_launch)
    (T₀ := atLaunch m ρ) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      -- what the launch deals to a core: its buffers as launched (these are its non-scratch buffers at `W0`), its generator
      -- register, its empty debt; the semaphores and the launch credit are not needed
      refine Pipeline.initEach L lv fun c => ?_
      rw [show unscopedBufs c (fun b => m ((c : Thread nD τ).loc b))
            = StableHlo.held (c : Thread nD τ) (Pipeline.ucRefs τ sig) (W0 m ρ c) from Pipeline.unscopedBufs_held c (W0 m ρ c)]
      iintro ⟨⟨Hbufs, -, Hdebt, -, Hreg, -⟩, -⟩
      imodintro
      isplitl [Hbufs]
      · iexact Hbufs
      · isplitl [Hreg]
        · iexists _
          iexact Hreg
        · iexists ∅
          iexact Hdebt)
    (QY := AtEnd m ρ)
    (hfin := read_at_end m ρ)
    (hQ := fun s h => h)

/-- The same run read at the result buffer and at the six arguments: the result ends at `W9`'s contents for it, and the
    arguments, which no host operation and no grid writes, end as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v61 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (run_all m ρ)

/-- The result buffer at the last boundary is the last grid's output array after its 25 points. -/
theorem result_eq (c : Dev nD) :
    W9 m ρ c (Proc.devRef .tc main_v61) = (dat3 (V8 m ρ) c).arrAt 2 cfg3.N :=
  W9_arr m ρ c 2

end Cert.KernelIdeal.Run

end
-- ==== Proof.HostChain.lean ====
/-
  The neighbourhood aggregation of a graph convolution, as the host operations both programs apply.

  From the edge array `e` (row 0 the sources, row 1 the targets) the network appends one self-loop per node to both lists,
  counts each node's incoming edges (its degree, a scatter-add of ones by target), takes `1/√degree` where the degree is
  positive and `0` elsewhere, and weights edge `k` by the product of that number at its source and at its target. An
  aggregation of node features `h` then gathers the source's row for every edge, scales it by the edge's weight and adds it
  into the target's row. Negative indices are first wrapped by the number of nodes, as array indexing does.

  Both programs spell these steps with the same host operations in the same order, so they are named here once, as
  functions of their inputs, and never opened: the two programs are compared by the values that go IN.
-/
import proofs.«123936_j77275051590253_1_alg».proof.Proof.Gen.KernelIdeal

noncomputable section

namespace Gcn.Host

open Idealize.ShloMosaic Cert.KernelIdeal Cert.KernelIdeal.Facts₀

variable {F : FTy → Type} [FloatOps F]

/-- One row of the edge array as a list of 1,600,000 node numbers. -/
def edgeRow0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

def edgeRow1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- A list of edge endpoints followed by the node numbers `0, 1, …, 99999`: one self-loop per node appended. -/
def withLoops (a : (⟨S1600000, .i32⟩ : BufTy).Contents (Elt F)) : (⟨S1700000, .i32⟩ : BufTy).Contents (Elt F) :=
  concatenate S1700000 0 [⟨S1600000, a⟩, ⟨S100000, (iotaInDim S100000 32 0 : (⟨S100000, .i32⟩ : BufTy).Contents (Elt F))⟩]
    concatenates_S1600000_S100000_S1700000_d0

/-- A negative node number counted from the end: `i + 100000` where `i < 0`, else `i`. -/
def wrap (i : (⟨S1700000, .i32⟩ : BufTy).Contents (Elt F)) : (⟨S1700000, .i32⟩ : BufTy).Contents (Elt F) :=
  select (cmpi .slt i (broadcastInDim S1700000 ![] bcast_S_S1700000 (constantI S_ 32 0#32 : (⟨S_, .i32⟩ : BufTy).Contents (Elt F))))
    (addi i (broadcastInDim S1700000 ![] bcast_S_S1700000 (constantI S_ 32 100000#32 : (⟨S_, .i32⟩ : BufTy).Contents (Elt F)))) i

/-- A list of node numbers as the one-column index array a gather or a scatter takes. -/
def asColumn (i : (⟨S1700000, .i32⟩ : BufTy).Contents (Elt F)) : (⟨S1700000x1, .i32⟩ : BufTy).Contents (Elt F) :=
  broadcastInDim S1700000x1 ![0] bcast_S1700000_S1700000x1_0 i

/-- Each node's degree: the number of list entries equal to it (a scatter-add of ones into zeros). -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (asColumn d)
    (broadcastInDim S1700000 ![] bcast_S_S1700000 (constant S_ .f32 0x3F800000#32))

/-- `1/√degree` where the degree is positive, `0` elsewhere. -/
def invSqrtDegree (d : (⟨S1700000, .i32⟩ : BufTy).Contents (Elt F)) : (⟨S100000, .f32⟩ : BufTy).Contents (Elt F) :=
  select (cmpf .ogt (degree d) (broadcastInDim S100000 ![] bcast_S_S100000 (constant S_ .f32 0x00000000#32)))
    (Host.rsqrt (degree d))
    (broadcastInDim S100000 ![] bcast_S_S100000 (id (constant S_ .f32 0x00000000#32 : (⟨S_, .f32⟩ : BufTy).Contents (Elt F))))

/-- The weight of every edge: `1/√degree` at its source times `1/√degree` at its target. -/
def edgeWeight (s d : (⟨S1700000, .i32⟩ : BufTy).Contents (Elt F)) : (⟨S1700000, .f32⟩ : BufTy).Contents (Elt F) :=
  mulf (Host.gather gather_S100000_S1700000x1_S1700000_n_0_n_n_0_1_1 (invSqrtDegree d) (asColumn (wrap s)))
    (Host.gather gather_S100000_S1700000x1_S1700000_n_0_n_n_0_1_1 (invSqrtDegree d) (asColumn (wrap d)))

/-- The aggregation of 32-column node features: for every edge the source's row, scaled by the edge's weight, added into the
    target's row. -/
def aggregate32 (s d : (⟨S1700000, .i32⟩ : BufTy).Contents (Elt F)) (w : (⟨S1700000, .f32⟩ : BufTy).Contents (Elt F))
    (h : (⟨S100000x32, .f32⟩ : BufTy).Contents (Elt F)) : (⟨S100000x32, .f32⟩ : BufTy).Contents (Elt F) :=
  Host.scatterAdd scatter_S100000x32_S1700000x1_S1700000x32_1_0_0_1
    (broadcastInDim S100000x32 ![] bcast_S_S100000x32 (constant S_ .f32 0x00000000#32))
    (asColumn d)
    (mulf (Host.gather gather_S100000x32_S1700000x1_S1700000x32_1_0_n_n_0_1_132 h (asColumn (wrap s)))
      (broadcastInDim S1700000x32 ![0, 1] bcast_S1700000x1_S1700000x32_0_1
        (broadcastInDim S1700000x1 ![0] bcast_S1700000_S1700000x1_0 w)))

/-- The same for 16-column node features. -/
def aggregate16 (s d : (⟨S1700000, .i32⟩ : BufTy).Contents (Elt F)) (w : (⟨S1700000, .f32⟩ : BufTy).Contents (Elt F))
    (h : (⟨S100000x16, .f32⟩ : BufTy).Contents (Elt F)) : (⟨S100000x16, .f32⟩ : BufTy).Contents (Elt F) :=
  Host.scatterAdd scatter_S100000x16_S1700000x1_S1700000x16_1_0_0_1
    (broadcastInDim S100000x16 ![] bcast_S_S100000x16 (constant S_ .f32 0x00000000#32))
    (asColumn d)
    (mulf (Host.gather gather_S100000x16_S1700000x1_S1700000x16_1_0_n_n_0_1_116 h (asColumn (wrap s)))
      (broadcastInDim S1700000x16 ![0, 1] bcast_S1700000x1_S1700000x16_0_1
        (broadcastInDim S1700000x1 ![0] bcast_S1700000_S1700000x1_0 w)))

end Gcn.Host

end
-- ==== Proof.LibOutlined.lean ====
/-
  Two facts about a line of host operations, for any program.

  * The buffer contents after two lines run one after the other are the second line's contents from the first's:
    `after (l₁ ++ l₂) V = after l₂ (after l₁ V)`. A long line can therefore be read back one stretch at a time, each
    stretch from an arbitrary valuation, and the readings composed.
  * An operation of an outlined function carries each value to its buffer's own type and, at the next operation, back
    (`TRef.toBuf`, `TRef.ofBuf`: transport along the equation "the buffer's type is the value's"). A value carried there
    and back is unchanged, whatever the buffer: `x.ofBuf (x.toBuf v) = v`. Rewriting with it (it matches syntactically,
    no buffer type is evaluated) clears every intermediate of an outlined function from the contents after its
    operations; what is left are the transports at the function's inputs and results, one small equation each.
-/
import Idealize.ShloMosaic.Lib.StableHlo.Run

noncomputable section

namespace Cert.Lib.Outlined

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are unchanged. -/
theorem ofBuf_toBuf {T : BufTy} (x : TRef sig T) (v : T.Contents Val) : x.ofBuf (x.toBuf v) = v := by
  obtain ⟨r, h, _, _⟩ := x
  subst h
  rfl

/-- The other way round. -/
theorem toBuf_ofBuf {T : BufTy} (x : TRef sig T) (u : x.ref.ty.Contents Val) : x.toBuf (x.ofBuf u) = u := by
  obtain ⟨r, h, _, _⟩ := x
  subst h
  rfl

end Cert.Lib.Outlined

end
-- ==== Proof.KernelStages.lean ====
/-
  The idealized kernel's host stretches, read as functions of what they find.

  Between its four grids the kernel runs stretches of host operations. Each is read here from ARBITRARY starting contents `W`:
  the three opening stretches leave the two edge lists with their self-loops and every edge's weight, as the shared functions of
  the edge array; the stretch after the first product is the 32-column aggregation of the buffers it reads, and leaves the hidden
  bias as one row; the stretch before the output layer is the 16-column aggregation, and leaves the output bias as one row. A
  stretch writes only its own results, so every buffer a later stage reads passes through unchanged. Nothing here opens a gather
  or a scatter: each statement is the stretch's operations composed, which is the shared function by definition.
-/
import proofs.«123936_j77275051590253_1_alg».proof.Proof.Gen.KernelIdeal.Frame
import proofs.«123936_j77275051590253_1_alg».proof.Proof.HostChain
import proofs.«123936_j77275051590253_1_alg».proof.Proof.LibOutlined
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Gcn.Host

variable {F : FTy → Type} [FloatOps F]
variable (W : Valuation τ sig (Elt F))

/-- The contents after the three opening stretches of host operations, from contents `W`. -/
abbrev opening : Valuation τ sig (Elt F) := after hostOps0_2 (after hostOps0_1 (after hostOps0 W))

set_option maxHeartbeats 40000000 in
/-- The opening stretches leave the source list with its self-loops. -/
theorem opening_sources : opening W (Proc.devRef .tc main_v5) = withLoops (edgeRow0 (W (Proc.devRef .tc main_arg1))) := by
  dsimp only [opening, hostOps0, hostOps0_1, hostOps0_2]
  after_results_simp
  try (first | rfl | (simp only [Cert.Lib.Outlined.ofBuf_toBuf, Cert.Lib.Outlined.toBuf_ofBuf]; rfl))
set_option maxHeartbeats 40000000 in
/-- … the target list with its self-loops. -/
theorem opening_targets : opening W (Proc.devRef .tc main_v6) = withLoops (edgeRow1 (W (Proc.devRef .tc main_arg1))) := by
  dsimp only [opening, hostOps0, hostOps0_1, hostOps0_2]
  after_results_simp
  try (first | rfl | (simp only [Cert.Lib.Outlined.ofBuf_toBuf, Cert.Lib.Outlined.toBuf_ofBuf]; rfl))
set_option maxHeartbeats 40000000 in
/-- … and every edge's weight. -/
theorem opening_weights : opening W (Proc.devRef .tc main_v29) = edgeWeight (withLoops (edgeRow0 (W (Proc.devRef .tc main_arg1)))) (withLoops (edgeRow1 (W (Proc.devRef .tc main_arg1)))) := by
  dsimp only [opening, hostOps0, hostOps0_1, hostOps0_2]
  after_results_simp
  try (first | rfl | (simp only [Cert.Lib.Outlined.ofBuf_toBuf, Cert.Lib.Outlined.toBuf_ofBuf]; rfl))
set_option maxHeartbeats 40000000 in
/-- They write no argument. -/
theorem opening_arg0 : opening W (Proc.devRef .tc main_arg0) = W (Proc.devRef .tc main_arg0) := by
  dsimp only [opening, hostOps0, hostOps0_1, hostOps0_2]
  after_results_simp
  try (first | rfl | (simp only [Cert.Lib.Outlined.ofBuf_toBuf, Cert.Lib.Outlined.toBuf_ofBuf]; rfl))
set_option maxHeartbeats 40000000 in
/-- They write no argument. -/
theorem opening_arg2 : opening W (Proc.devRef .tc main_arg2) = W (Proc.devRef .tc main_arg2) := by
  dsimp only [opening, hostOps0, hostOps0_1, hostOps0_2]
  after_results_simp
  try (first | rfl | (simp only [Cert.Lib.Outlined.ofBuf_toBuf, Cert.Lib.Outlined.toBuf_ofBuf]; rfl))
set_option maxHeartbeats 40000000 in
/-- They write no argument. -/
theorem opening_arg3 : opening W (Proc.devRef .tc main_arg3) = W (Proc.devRef .tc main_arg3) := by
  dsimp only [opening, hostOps0, hostOps0_1, hostOps0_2]
  after_results_simp
  try (first | rfl | (simp only [Cert.Lib.Outlined.ofBuf_toBuf, Cert.Lib.Outlined.toBuf_ofBuf]; rfl))
set_option maxHeartbeats 40000000 in
/-- They write no argument. -/
theorem opening_arg4 : opening W (Proc.devRef .tc main_arg4) = W (Proc.devRef .tc main_arg4) := by
  dsimp only [opening, hostOps0, hostOps0_1, hostOps0_2]
  after_results_simp
  try (first | rfl | (simp only [Cert.Lib.Outlined.ofBuf_toBuf, Cert.Lib.Outlined.toBuf_ofBuf]; rfl))
set_option maxHeartbeats 40000000 in
/-- They write no argument. -/
theorem opening_arg5 : opening W (Proc.devRef .tc main_arg5) = W (Proc.devRef .tc main_arg5) := by
  dsimp only [opening, hostOps0, hostOps0_1, hostOps0_2]
  after_results_simp
  try (first | rfl | (simp only [Cert.Lib.Outlined.ofBuf_toBuf, Cert.Lib.Outlined.toBuf_ofBuf]; rfl))
set_option maxHeartbeats 40000000 in
/-- The stretch between the first product and the hidden layer is the aggregation of what it finds. -/
theorem agg1_value : after hostOps1 W (Proc.devRef .tc main_v43) = aggregate32 (W (Proc.devRef .tc main_v5)) (W (Proc.devRef .tc main_v6)) (W (Proc.devRef .tc main_v29)) (W (Proc.devRef .tc main_v30)) := by
  dsimp only [hostOps1]
  after_results_simp
  try (first | rfl | (simp only [Cert.Lib.Outlined.ofBuf_toBuf, Cert.Lib.Outlined.toBuf_ofBuf]; rfl))
set_option maxHeartbeats 40000000 in
/-- … and the hidden bias as one row. -/
theorem agg1_bias : after hostOps1 W (Proc.devRef .tc main_v44) = shapeCast S1x32 (W (Proc.devRef .tc main_arg3)) Facts₀.shapeCasts_S32_S1x32 := by
  dsimp only [hostOps1]
  after_results_simp
  try (first | rfl | (simp only [Cert.Lib.Outlined.ofBuf_toBuf, Cert.Lib.Outlined.toBuf_ofBuf]; rfl))
set_option maxHeartbeats 40000000 in
/-- It writes none of the buffers the later stages read. -/
theorem agg1_keeps_v5 : after hostOps1 W (Proc.devRef .tc main_v5) = W (Proc.devRef .tc main_v5) := by
  dsimp only [hostOps1]
  after_results_simp
  try (first | rfl | (simp only [Cert.Lib.Outlined.ofBuf_toBuf, Cert.Lib.Outlined.toBuf_ofBuf]; rfl))
set_option maxHeartbeats 40000000 in
/-- It writes none of the buffers the later stages read. -/
theorem agg1_keeps_v6 : after hostOps1 W (Proc.devRef .tc main_v6) = W (Proc.devRef .tc main_v6) := by
  dsimp only [hostOps1]
  after_results_simp
  try (first | rfl | (simp only [Cert.Lib.Outlined.ofBuf_toBuf, Cert.Lib.Outlined.toBuf_ofBuf]; rfl))
set_option maxHeartbeats 40000000 in
/-- It writes none of the buffers the later stages read. -/
theorem agg1_keeps_v29 : after hostOps1 W (Proc.devRef .tc main_v29) = W (Proc.devRef .tc main_v29) := by
  dsimp only [hostOps1]
  after_results_simp
  try (first | rfl | (simp only [Cert.Lib.Outlined.ofBuf_toBuf, Cert.Lib.Outlined.toBuf_ofBuf]; rfl))
set_option maxHeartbeats 40000000 in
/-- It writes none of the buffers the later stages read. -/
theorem agg1_keeps_arg4 : after hostOps1 W (Proc.devRef .tc main_arg4) = W (Proc.devRef .tc main_arg4) := by
  dsimp only [hostOps1]
  after_results_simp
  try (first | rfl | (simp only [Cert.Lib.Outlined.ofBuf_toBuf, Cert.Lib.Outlined.toBuf_ofBuf]; rfl))
set_option maxHeartbeats 40000000 in
/-- It writes none of the buffers the later stages read. -/
theorem agg1_keeps_arg5 : after hostOps1 W (Proc.devRef .tc main_arg5) = W (Proc.devRef .tc main_arg5) := by
  dsimp only [hostOps1]
  after_results_simp
  try (first | rfl | (simp only [Cert.Lib.Outlined.ofBuf_toBuf, Cert.Lib.Outlined.toBuf_ofBuf]; rfl))
set_option maxHeartbeats 40000000 in
/-- The stretch before the output layer is the aggregation of what it finds. -/
theorem agg2_value : after hostOps3 W (Proc.devRef .tc main_v59) = aggregate16 (W (Proc.devRef .tc main_v5)) (W (Proc.devRef .tc main_v6)) (W (Proc.devRef .tc main_v29)) (W (Proc.devRef .tc main_v46)) := by
  dsimp only [hostOps3]
  after_results_simp
  try (first | rfl | (simp only [Cert.Lib.Outlined.ofBuf_toBuf, Cert.Lib.Outlined.toBuf_ofBuf]; rfl))
set_option maxHeartbeats 40000000 in
/-- … and the output bias as one row. -/
theorem agg2_bias : after hostOps3 W (Proc.devRef .tc main_v60) = shapeCast S1x16 (W (Proc.devRef .tc main_arg5)) Facts₀.shapeCasts_S16_S1x16 := by
  dsimp only [hostOps3]
  after_results_simp
  try (first | rfl | (simp only [Cert.Lib.Outlined.ofBuf_toBuf, Cert.Lib.Outlined.toBuf_ofBuf]; rfl))

end Cert.KernelIdeal.Stages

end
-- ==== Proof.LibRowLayers.lean ====
/-
  The dense layers of a two-convolution graph network, entry by entry over the extended reals.

  Every layer here maps an array of `n` rows to an array of `n` rows, and entry `(r, q)` of the result reads row `r` of
  the input only. So a layer of the whole array, restricted to a block of rows, is the same layer of that block: that is
  why a kernel that walks the rows block by block computes the whole-array layer. A bias is carried as a one-row array.
    * `affineLinear x A a B`   : `(x · A + a) · B`                              (two products, no nonlinearity between);
    * `reluLinear y b W`       : `max (y + b) 0 · W`;
    * `reluAffine y b W c`     : `max (y + b) 0 · W + c`;
    * `logSoftmaxRows z`       : `(z − max_j z) − log Σ_j exp (z − max_j z)`, the maximum and the sum along each row.
-/
import Idealize.ShloMosaic.PureOps.Ideal.Laws
import Idealize.ShloMosaic.Lib.ValueIdx

noncomputable section

open scoped BigOperators

namespace Gcn.Layers

open Idealize.ShloMosaic Idealize.ShloMosaic.ValueIdx

variable {n K H C : ℕ}

/-- `(x · A + a) · B` at entry `(r, q)`: `Σ_k (Σ_l x[r,l] · A[l,k] + a[0,k]) · B[k,q]`. -/
def affineLinear (x : (⟨2, ![n, K]⟩ : Shape).Idx → EReal) (A : (⟨2, ![K, H]⟩ : Shape).Idx → EReal)
    (a : (⟨2, ![1, H]⟩ : Shape).Idx → EReal) (B : (⟨2, ![H, C]⟩ : Shape).Idx → EReal) :
    (⟨2, ![n, C]⟩ : Shape).Idx → EReal :=
  fun i => ∑ k : Fin H, (∑ l : Fin K, x (ix2 (i 0) l) * A (ix2 l k) + a (ix2 (0 : Fin 1) k)) * B (ix2 k (i 1))

/-- `max (y + b) 0 · W` at entry `(r, q)`: `Σ_k max (y[r,k] + b[0,k]) 0 · W[k,q]`. -/
def reluLinear (y : (⟨2, ![n, H]⟩ : Shape).Idx → EReal) (b : (⟨2, ![1, H]⟩ : Shape).Idx → EReal)
    (W : (⟨2, ![H, C]⟩ : Shape).Idx → EReal) : (⟨2, ![n, C]⟩ : Shape).Idx → EReal :=
  fun i => ∑ k : Fin H, max (y (ix2 (i 0) k) + b (ix2 (0 : Fin 1) k)) 0 * W (ix2 k (i 1))

/-- `max (y + b) 0 · W + c`. -/
def reluAffine (y : (⟨2, ![n, H]⟩ : Shape).Idx → EReal) (b : (⟨2, ![1, H]⟩ : Shape).Idx → EReal)
    (W : (⟨2, ![H, C]⟩ : Shape).Idx → EReal) (c : (⟨2, ![1, C]⟩ : Shape).Idx → EReal) :
    (⟨2, ![n, C]⟩ : Shape).Idx → EReal :=
  fun i => reluLinear y b W i + c (ix2 (0 : Fin 1) (i 1))

/-- The largest entry of row `r`. -/
def rowMax (z : (⟨2, ![n, C]⟩ : Shape).Idx → EReal) (r : Fin n) : EReal :=
  (Finset.univ : Finset (Fin C)).sup fun j => z (ix2 r j)

/-- The logarithm of a row's softmax: each entry less the row's maximum, less the logarithm of the row's sum of the
    exponentials of those differences. -/
def logSoftmaxRows (z : (⟨2, ![n, C]⟩ : Shape).Idx → EReal) : (⟨2, ![n, C]⟩ : Shape).Idx → EReal :=
  fun i => (z i - rowMax z (i 0)) - Ideal.log (∑ j : Fin C, Ideal.exp (z (ix2 (i 0) j) - rowMax z (i 0)))

/-! ## A layer reads one row -/

theorem affineLinear_apply (x : (⟨2, ![n, K]⟩ : Shape).Idx → EReal) (A : (⟨2, ![K, H]⟩ : Shape).Idx → EReal)
    (a : (⟨2, ![1, H]⟩ : Shape).Idx → EReal) (B : (⟨2, ![H, C]⟩ : Shape).Idx → EReal) (r : Fin n) (q : Fin C) :
    affineLinear x A a B (ix2 r q)
      = ∑ k : Fin H, (∑ l : Fin K, x (ix2 r l) * A (ix2 l k) + a (ix2 (0 : Fin 1) k)) * B (ix2 k q) := rfl

theorem reluLinear_apply (y : (⟨2, ![n, H]⟩ : Shape).Idx → EReal) (b : (⟨2, ![1, H]⟩ : Shape).Idx → EReal)
    (W : (⟨2, ![H, C]⟩ : Shape).Idx → EReal) (r : Fin n) (q : Fin C) :
    reluLinear y b W (ix2 r q) = ∑ k : Fin H, max (y (ix2 r k) + b (ix2 (0 : Fin 1) k)) 0 * W (ix2 k q) := rfl

theorem reluAffine_apply (y : (⟨2, ![n, H]⟩ : Shape).Idx → EReal) (b : (⟨2, ![1, H]⟩ : Shape).Idx → EReal)
    (W : (⟨2, ![H, C]⟩ : Shape).Idx → EReal) (c : (⟨2, ![1, C]⟩ : Shape).Idx → EReal) (r : Fin n) (q : Fin C) :
    reluAffine y b W c (ix2 r q)
      = (∑ k : Fin H, max (y (ix2 r k) + b (ix2 (0 : Fin 1) k)) 0 * W (ix2 k q)) + c (ix2 (0 : Fin 1) q) := rfl

theorem logSoftmaxRows_apply (z : (⟨2, ![n, C]⟩ : Shape).Idx → EReal) (r : Fin n) (q : Fin C) :
    logSoftmaxRows z (ix2 r q)
      = (z (ix2 r q) - rowMax z r) - Ideal.log (∑ j : Fin C, Ideal.exp (z (ix2 r j) - rowMax z r)) := rfl

/-! ## Rows of a block are rows of the array

  If block `X` of `m` rows holds rows `o, o + 1, …` of the array `x` (`hX`), then a layer of the block at `(p, q)` is
  the layer of the array at `(o + p, q)`. -/

section Blocks

variable {m : ℕ}

theorem affineLinear_block (x : (⟨2, ![n, K]⟩ : Shape).Idx → EReal) (X : (⟨2, ![m, K]⟩ : Shape).Idx → EReal)
    (A : (⟨2, ![K, H]⟩ : Shape).Idx → EReal) (a : (⟨2, ![1, H]⟩ : Shape).Idx → EReal)
    (B : (⟨2, ![H, C]⟩ : Shape).Idx → EReal) (p : Fin m) (r : Fin n) (hX : ∀ l : Fin K, X (ix2 p l) = x (ix2 r l))
    (q : Fin C) : affineLinear X A a B (ix2 p q) = affineLinear x A a B (ix2 r q) := by
  rw [affineLinear_apply, affineLinear_apply]
  refine Finset.sum_congr rfl fun k _ => ?_
  refine congrArg (fun s => (s + a (ix2 (0 : Fin 1) k)) * B (ix2 k q)) ?_
  exact Finset.sum_congr rfl fun l _ => by rw [hX l]

theorem reluLinear_block (y : (⟨2, ![n, H]⟩ : Shape).Idx → EReal) (Y : (⟨2, ![m, H]⟩ : Shape).Idx → EReal)
    (b : (⟨2, ![1, H]⟩ : Shape).Idx → EReal) (W : (⟨2, ![H, C]⟩ : Shape).Idx → EReal) (p : Fin m) (r : Fin n)
    (hY : ∀ k : Fin H, Y (ix2 p k) = y (ix2 r k)) (q : Fin C) :
    reluLinear Y b W (ix2 p q) = reluLinear y b W (ix2 r q) := by
  rw [reluLinear_apply, reluLinear_apply]
  exact Finset.sum_congr rfl fun k _ => by rw [hY k]

theorem reluAffine_block (y : (⟨2, ![n, H]⟩ : Shape).Idx → EReal) (Y : (⟨2, ![m, H]⟩ : Shape).Idx → EReal)
    (b : (⟨2, ![1, H]⟩ : Shape).Idx → EReal) (W : (⟨2, ![H, C]⟩ : Shape).Idx → EReal)
    (c : (⟨2, ![1, C]⟩ : Shape).Idx → EReal) (p : Fin m) (r : Fin n)
    (hY : ∀ k : Fin H, Y (ix2 p k) = y (ix2 r k)) (q : Fin C) :
    reluAffine Y b W c (ix2 p q) = reluAffine y b W c (ix2 r q) :=
  congrArg (· + c (ix2 (0 : Fin 1) q)) (reluLinear_block y Y b W p r hY q)

theorem rowMax_block (z : (⟨2, ![n, C]⟩ : Shape).Idx → EReal) (Z : (⟨2, ![m, C]⟩ : Shape).Idx → EReal) (p : Fin m)
    (r : Fin n) (hZ : ∀ j : Fin C, Z (ix2 p j) = z (ix2 r j)) : rowMax Z p = rowMax z r := by
  unfold rowMax
  exact congrArg (fun f => (Finset.univ : Finset (Fin C)).sup f) (funext hZ)

theorem logSoftmaxRows_block (z : (⟨2, ![n, C]⟩ : Shape).Idx → EReal) (Z : (⟨2, ![m, C]⟩ : Shape).Idx → EReal)
    (p : Fin m) (r : Fin n) (hZ : ∀ j : Fin C, Z (ix2 p j) = z (ix2 r j)) (q : Fin C) :
    logSoftmaxRows Z (ix2 p q) = logSoftmaxRows z (ix2 r q) := by
  rw [logSoftmaxRows_apply, logSoftmaxRows_apply, rowMax_block z Z p r hZ, hZ q]
  refine congrArg (fun s => (z (ix2 r q) - rowMax z r) - Ideal.log s) ?_
  exact Finset.sum_congr rfl fun j _ => by rw [hZ j]

end Blocks

end Gcn.Layers

end
-- ==== Proof.LibDenseSteps.lean ====
/-
  Row-wise dense steps, entry by entry over the extended reals, for any sizes.

  A network that alternates whole-graph operations with dense layers applies, row by row, a matrix product, a bias row, the
  positive part (and, at the end, the logarithm of a row softmax). Every such step maps an array of `n` rows to
  an array of `n` rows, and entry `(r, q)` of the result reads row `r` of the input only; so a step of the whole array,
  restricted to a block of consecutive rows, is the same step of that block. That is the whole reason a program that walks
  the rows block by block computes the whole-array step.
    * `product X W` : entry `(r, q)` is `Σ_k X[r,k] · W[k,q]`;
    * `addRow A b`  : entry `(r, q)` is `A[r,q] + b[0,q]`;
    * `relu Y`      : entry `(r, q)` is `max Y[r,q] 0`;
  the logarithm of a row softmax is `Gcn.Layers.logSoftmaxRows`.
-/
import proofs.«123936_j77275051590253_1_alg».proof.Proof.LibRowLayers

noncomputable section

open scoped BigOperators

namespace Gcn.Steps

open Idealize.ShloMosaic Idealize.ShloMosaic.ValueIdx Gcn.Layers

variable {n K H : ℕ}

/-- The matrix product: entry `(r, q)` is `Σ_k X[r,k] · W[k,q]`. -/
def product (X : (⟨2, ![n, K]⟩ : Shape).Idx → EReal) (W : (⟨2, ![K, H]⟩ : Shape).Idx → EReal) :
    (⟨2, ![n, H]⟩ : Shape).Idx → EReal :=
  fun i => ∑ k : Fin K, X (ix2 (i 0) k) * W (ix2 k (i 1))

/-- A one-row array added to every row: entry `(r, q)` is `A[r,q] + b[0,q]`. -/
def addRow (A : (⟨2, ![n, H]⟩ : Shape).Idx → EReal) (b : (⟨2, ![1, H]⟩ : Shape).Idx → EReal) :
    (⟨2, ![n, H]⟩ : Shape).Idx → EReal :=
  fun i => A i + b (ix2 (0 : Fin 1) (i 1))

/-- The positive part of every entry. -/
def relu (Y : (⟨2, ![n, H]⟩ : Shape).Idx → EReal) : (⟨2, ![n, H]⟩ : Shape).Idx → EReal :=
  fun i => max (Y i) 0

theorem product_apply (X : (⟨2, ![n, K]⟩ : Shape).Idx → EReal) (W : (⟨2, ![K, H]⟩ : Shape).Idx → EReal) (r : Fin n)
    (q : Fin H) : product X W (ix2 r q) = ∑ k : Fin K, X (ix2 r k) * W (ix2 k q) := rfl

theorem addRow_apply (A : (⟨2, ![n, H]⟩ : Shape).Idx → EReal) (b : (⟨2, ![1, H]⟩ : Shape).Idx → EReal) (r : Fin n)
    (q : Fin H) : addRow A b (ix2 r q) = A (ix2 r q) + b (ix2 (0 : Fin 1) q) := rfl

theorem relu_apply (Y : (⟨2, ![n, H]⟩ : Shape).Idx → EReal) (r : Fin n) (q : Fin H) :
    relu Y (ix2 r q) = max (Y (ix2 r q)) 0 := rfl

/-! ## Rows of a block are rows of the array

  If block `X` of `m` rows holds, in its row `p`, row `r` of the array `x`, then a step of the block at `(p, q)` is the
  step of the array at `(r, q)`. -/

section Blocks

variable {m : ℕ}

theorem product_block (x : (⟨2, ![n, K]⟩ : Shape).Idx → EReal) (X : (⟨2, ![m, K]⟩ : Shape).Idx → EReal)
    (W : (⟨2, ![K, H]⟩ : Shape).Idx → EReal) (p : Fin m) (r : Fin n) (hX : ∀ k : Fin K, X (ix2 p k) = x (ix2 r k))
    (q : Fin H) : product X W (ix2 p q) = product x W (ix2 r q) := by
  rw [product_apply, product_apply]
  exact Finset.sum_congr rfl fun k _ => by rw [hX k]

theorem addRow_block (a : (⟨2, ![n, H]⟩ : Shape).Idx → EReal) (A : (⟨2, ![m, H]⟩ : Shape).Idx → EReal)
    (b : (⟨2, ![1, H]⟩ : Shape).Idx → EReal) (p : Fin m) (r : Fin n) (hA : ∀ q : Fin H, A (ix2 p q) = a (ix2 r q))
    (q : Fin H) : addRow A b (ix2 p q) = addRow a b (ix2 r q) := by
  rw [addRow_apply, addRow_apply, hA q]

theorem relu_block (y : (⟨2, ![n, H]⟩ : Shape).Idx → EReal) (Y : (⟨2, ![m, H]⟩ : Shape).Idx → EReal) (p : Fin m)
    (r : Fin n) (hY : ∀ q : Fin H, Y (ix2 p q) = y (ix2 r q)) (q : Fin H) : relu Y (ix2 p q) = relu y (ix2 r q) := by
  rw [relu_apply, relu_apply, hY q]

end Blocks

end Gcn.Steps

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.FirstProduct.lean ====
/-
  The first dense layer of the network: the feature array times the first weight matrix.

  The array `x` has 100000 rows of 512 features and the weight matrix `W` is 512 × 32; the layer's result is the
  100000 × 32 array whose entry `(r, q)` is `Σ_k x[r,k] · W[k,q]`. The program does not form this product at once: it
  walks the rows in 25 blocks of 4000 consecutive rows. At block `t` it holds rows `4000·t … 4000·t + 3999` of `x`
  together with the whole of `W`, multiplies them, and writes the 4000 × 32 result over the same rows of the output.
  Entry `(r, q)` of a product reads row `r` of the left factor only, so the product of a block of rows IS the block of
  the product; and every row lies in exactly one block (`r / 4000`), so after the 25 blocks the output array is the
  product of the whole arrays. Over the extended reals the narrowing of the two factors to a shorter format before
  the multiplication changes nothing, and the accumulator starts at zero.
-/
import proofs.«123936_j77275051590253_1_alg».proof.Proof.Gen.KernelIdeal.Frame
import proofs.«123936_j77275051590253_1_alg».proof.Proof.LibDenseSteps
import proofs.«123936_j77275051590253_1_alg».proof.Proof.LibDotCols
import Idealize.ShloMosaic.Lib.Pipeline.Value

noncomputable section

open scoped BigOperators

namespace Gcn.FirstProduct

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset pair `(0, 0)` is the constant-zero offset. -/
theorem zero_offsets : (![0, 0] : Fin 2 → Nat) = fun _ => 0 := funext fun a => by fin_cases a <;> rfl

/-- Where the three blocks sit at each of the 25 steps: the block of `x` is in the same block-row as the output's and
    in block-column 0; the weight matrix is taken whole (block `(0, 0)`); the output's block is in block-column 0 and
    its block-row is at most 24. -/
theorem index_facts : ∀ t : Fin cfg0.N,
    win0_0.index t (0 : Fin 2) = win0_2.index t (0 : Fin 2) ∧ win0_0.index t (1 : Fin 2) = 0
      ∧ win0_1.index t (0 : Fin 2) = 0 ∧ win0_1.index t (1 : Fin 2) = 0
      ∧ win0_2.index t (1 : Fin 2) = 0 ∧ win0_2.index t (0 : Fin 2) ≤ 24 :=
  (by decide +kernel : ∀ t : Fin grid0.N, _)

/-- Each of the 25 block-rows of the output is written at some step. -/
theorem index_onto : ∀ q : Fin 25, ∃ t : Fin cfg0.N, win0_2.index t = ![q.val, 0] :=
  (by decide +kernel : ∀ q : Fin 25, ∃ t : Fin grid0.N, win0_2.index t = ![q.val, 0])

/-- What one step computes from the blocks it holds, at entry `(p, q)`: the product's entry
    `Σ_k X[p,k] · W[k,q]`. -/
theorem payload_apply (X : Vec Ideal S4000x512 .f32) (W : Vec Ideal S512x32 .f32) (p : Fin 4000) (q : Fin 32) :
    k0_pay1 X W (ix2 p q) = Gcn.Steps.product (n := 4000) (K := 512) (H := 32) X W (ix2 p q) := by
  unfold k0_pay1
  exact Cert.Lib.DotCols.matmul_cols_apply dot_S4000x512_S512x32_S4000x32_1_0_0_1_n_n rfl none
    (truncf .bf16 X bitsLt_bf16_f32) (truncf .bf16 W bitsLt_bf16_f32) p q

/-! ## Where a block's entries sit in the arrays

  A block's entry `(p, k)` sits in its array at row `(block-row) · 4000 + p` and column `(block-column) · width + k`. -/

/-- Row `p` of the block of `x` held at step `t` is row `r` of `x`, when `r` is the output's block-row times 4000
    plus `p`; the columns are `x`'s own. -/
theorem features_at (t : Fin cfg0.N) (p : Fin 4000) (k : Fin 512) (r : Fin 100000)
    (hr : r.val = win0_2.index t (0 : Fin 2) * 4000 + p.val) :
    ((cfg0.win 0).blk t).view.emb (ix2 p k) = (ix2 r k : S100000x512.Idx) := by
  obtain ⟨e0, e1, -⟩ := index_facts t
  funext a; apply Fin.ext
  match a with
  | ⟨0, _⟩ => show win0_0.index t (0 : Fin 2) * 4000 + 1 * p.val = r.val; omega
  | ⟨1, _⟩ => show win0_0.index t (1 : Fin 2) * 512 + 1 * k.val = k.val; omega

/-- The weight matrix is held whole at every step: its block's entry `y` is the matrix's entry `y`. -/
theorem weights_at (t : Fin cfg0.N) (y : S512x32.Idx) : ((cfg0.win 1).blk t).view.emb y = y := by
  obtain ⟨-, -, e2, e3, -⟩ := index_facts t
  funext a; apply Fin.ext
  match a with
  | ⟨0, _⟩ => show win0_1.index t (0 : Fin 2) * 512 + 1 * (y 0).val = (y 0).val; omega
  | ⟨1, _⟩ => show win0_1.index t (1 : Fin 2) * 32 + 1 * (y 1).val = (y 1).val; omega

/-- Row `p` of the output's block at step `t` is row `r` of the output, for the same `r`. -/
theorem result_at (t : Fin cfg0.N) (p : Fin 4000) (q : Fin 32) (r : Fin 100000)
    (hr : r.val = win0_2.index t (0 : Fin 2) * 4000 + p.val) :
    ((cfg0.win 2).blk t).view.emb (ix2 p q) = (ix2 r q : S100000x32.Idx) := by
  obtain ⟨-, -, -, -, e4, -⟩ := index_facts t
  funext a; apply Fin.ext
  match a with
  | ⟨0, _⟩ => show win0_2.index t (0 : Fin 2) * 4000 + 1 * p.val = r.val; omega
  | ⟨1, _⟩ => show win0_2.index t (1 : Fin 2) * 32 + 1 * q.val = q.val; omega

/-- One step, over any arrays: if row `p` of the held block `X` is row `r` of `x` and the held matrix is `w`, the step's
    entry `(p, q)` is the whole product's entry `(r, q)`. -/
theorem step_entry (x : S100000x512.Idx → EReal) (w : S512x32.Idx → EReal) (X : Vec Ideal S4000x512 .f32)
    (W : Vec Ideal S512x32 .f32) (p : Fin 4000) (q : Fin 32) (r : Fin 100000)
    (hX : ∀ k : Fin 512, X (ix2 p k) = x (ix2 r k)) (hW : W = w) :
    k0_pay1 X W (ix2 p q) = Gcn.Steps.product (n := 100000) (K := 512) (H := 32) x w (ix2 r q) := by
  subst hW
  exact (payload_apply X W p q).trans (Gcn.Steps.product_block x X W p r hX q)

/-! ## What each step writes, and the whole array -/

/-- WHAT STEP `t` WRITES BACK is block `t` of the product of the whole arrays. -/
theorem flushed_eq (c : Dev nD) (t : Fin cfg0.N) :
    (dat0 (F := Ideal) V c).flushed 2 t
      = ((cfg0.win 2).blk t).view.read (Elt Ideal)
          (Gcn.Steps.product (n := 100000) (K := 512) (H := 32) (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S4000x512) zero_offsets, View.ld_unit_zero (S := S512x32) zero_offsets]
  obtain ⟨-, -, -, -, -, e5⟩ := index_facts t
  funext j
  obtain ⟨p, q, rfl⟩ : ∃ (p : Fin 4000) (q : Fin 32), j = ix2 p q := ⟨j 0, j 1, eq_ix2 j⟩
  have hr : win0_2.index t (0 : Fin 2) * 4000 + p.val < 100000 := by have := p.isLt; omega
  show k0_pay1 (iblk0 V c 0 t) (iblk0 V c 1 t) (ix2 p q)
    = Gcn.Steps.product (n := 100000) (K := 512) (H := 32) (V c main_arg0) (V c main_arg2)
        (((cfg0.win 2).blk t).view.emb (ix2 p q))
  rw [result_at t p q ⟨_, hr⟩ rfl]
  refine step_entry (V c main_arg0) (V c main_arg2) (iblk0 V c 0 t) (iblk0 V c 1 t) p q ⟨_, hr⟩ ?_ ?_
  · intro k
    show V c main_arg0 (((cfg0.win 0).blk t).view.emb (ix2 p k)) = _
    rw [features_at t p k ⟨_, hr⟩ rfl]
  · funext y
    show V c main_arg2 (((cfg0.win 1).blk t).view.emb y) = V c main_arg2 y
    rw [weights_at t y]

/-- An entry of the output array is in step `t`'s block iff each coordinate is in the block's range on its axis. -/
theorem mem_block (t : Fin cfg0.N) (i : S100000x32.Idx) :
    i ∈ ((cfg0.win 2).blk t).view.set ↔ ∀ a : Fin 2, win0_2.index t a * S4000x32.size a ≤ (i a).val
      ∧ (i a).val < win0_2.index t a * S4000x32.size a + S4000x32.size a := by
  show i ∈ ((View.whole main_v30).slice (win0_2.rect t)).set ↔ _
  rw [View.set_slice_whole, Rect.mem_set_unit]
  exact Iff.rfl

/-- Every entry of the output array is written: row `r` at the step whose block-row is `r / 4000`. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := index_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 32 ≤ (i 1).val ∧ (i 1).val < win0_2.index t (1 : Fin 2) * 32 + 32
    omega

/-- THE FIRST LAYER'S ARRAY after its 25 steps is the product of the feature array and the first weight matrix. -/
theorem array_eq (c : Dev nD) :
    (dat0 (F := Ideal) V c).arrAt 2 cfg0.N
      = Gcn.Steps.product (n := 100000) (K := 512) (H := 32) (V c main_arg0) (V c main_arg2) :=
  (dat0 (F := Ideal) V c).arrAt_eq_of_cover 2 _ (fun t _ => flushed_eq V c t) cover

end Gcn.FirstProduct

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«123936_j77275051590253_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«123936_j77275051590253_1_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«123936_j77275051590253_1_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibRowLayerOps.lean ====
/-
  Each dense layer of the network (LibRowLayers.lean) as the two programs spell it, for any number of rows.

  A kernel body spells a layer with vector operations on a block — `tpu.matmul` into the zero accumulator, a one-row bias
  broadcast over the rows, a maximum with the splat of the float zero, lane reductions that keep their axis —, rounding to a
  narrower float format on the way into each product; the host spells it with `dot_general`, `broadcast_in_dim`, `reduce`.
  Over the extended reals a change of float format is the identity, a product into the zero accumulator is the plain sum of
  products, and both spellings of a layer are the entry-by-entry function of LibRowLayers.lean. Nothing here needs the entries to
  be finite: no term is moved across a sum.
-/
import proofs.«123936_j77275051590253_1_alg».proof.Proof.LibRowLayers
import proofs.«123936_j77275051590253_1_alg».proof.Proof.LibDotCols
import proofs.«123936_j77275051590253_1_alg».proof.Proof.LibDotColsHost
import proofs.«123936_j77275051590253_1_alg».proof.Proof.LibHostMax
import proofs.«123936_j77275051590253_1_alg».proof.Proof.LibLaneRows
import Idealize.ShloMosaic.Lib.ValueLayout
import Idealize.ShloMosaic.Lib.Pipeline.Value

noncomputable section

open scoped BigOperators

namespace Gcn.LayerOps

open Idealize.ShloMosaic Idealize.ShloMosaic.ValueIdx Gcn.Layers Cert.Lib.DotCols Cert.Lib.DotColsHost

variable {n K H C : ℕ}

/-! ## Small readings -/

/-- The float zero word denotes zero. -/
theorem ofBits_zero : FloatOps.ofBits (F := Ideal) .f32 0x00000000#32 = (0 : EReal) := Ideal.ofBits_zero_f32

/-- The word of −∞ denotes the bottom element. -/
theorem ofBits_neg_inf : FloatOps.ofBits (F := Ideal) .f32 0xFF800000#32 = (⊥ : EReal) := HostMax.ofBits_neg_inf

/-- A vector of `H` entries as a one-row array. -/
def row (a : (⟨1, ![H]⟩ : Shape).Idx → EReal) : (⟨2, ![1, H]⟩ : Shape).Idx → EReal := fun i => a (ix1 (i 1))

/-- Reshaping a vector to one row is `row`. -/
theorem shapeCast_row (a : (⟨1, ![H]⟩ : Shape).Idx → EReal) (h : (⟨1, ![H]⟩ : Shape).ShapeCasts ⟨2, ![1, H]⟩) :
    shapeCast ⟨2, ![1, H]⟩ a h = row a := by
  funext i
  obtain ⟨u, k, rfl⟩ : ∃ (u : Fin 1) (k : Fin H), i = ix2 u k := ⟨i 0, i 1, eq_ix2 i⟩
  exact shapeCast_a_1a_apply a h u k

/-- The host's bias: a vector set as one row (`dims = [1]`), the row repeated over `n` rows (`dims = [0, 1]`); at
    `(p, k)` it is the vector's entry `k`. -/
theorem bias_rows_apply (a : (⟨1, ![H]⟩ : Shape).Idx → EReal)
    (h1 : (⟨1, ![H]⟩ : Shape).BroadcastsInDim ⟨2, ![1, H]⟩ ![1])
    (h2 : (⟨2, ![1, H]⟩ : Shape).BroadcastsInDim ⟨2, ![n, H]⟩ ![0, 1]) (p : Fin n) (k : Fin H) :
    broadcastInDim ⟨2, ![n, H]⟩ ![0, 1] h2 (broadcastInDim ⟨2, ![1, H]⟩ ![1] h1 a) (ix2 p k) = row a (ix2 (0 : Fin 1) k) := by
  refine (broadcastInDim_apply _ h2 _ (ix2 p k) (ix2 (0 : Fin 1) k) fun ax => ?_).trans ?_
  · match ax with
    | ⟨0, _⟩ => show (0 : ℕ) = if (1 : ℕ) = 1 then 0 else p.val; rw [if_pos rfl]
    | ⟨1, _⟩ =>
      show k.val = if H = 1 then 0 else k.val
      split
      · have := k.isLt; omega
      · rfl
  · refine broadcastInDim_apply _ h1 a (ix2 (0 : Fin 1) k) (ix1 k) fun ax => ?_
    match ax with
    | ⟨0, _⟩ =>
      show k.val = if H = 1 then 0 else k.val
      split
      · have := k.isLt; omega
      · rfl

/-- The host's splat of the float zero over an array. -/
theorem zeros_apply (s : Shape) (h : (⟨0, ![]⟩ : Shape).BroadcastsInDim s ![]) (i : s.Idx) :
    broadcastInDim s ![] h (constant (F := Ideal) ⟨0, ![]⟩ .f32 0x00000000#32) i = (0 : EReal) :=
  (broadcastInDim_apply _ h _ i ix0 fun ax => ax.elim0).trans ofBits_zero

/-! ## `(x · A + a) · B` -/

/-- The kernel's spelling on a block: round, product, bias row over the rows, round, product, round. -/
theorem kernel_affineLinear (D1 : DotDims ⟨2, ![n, K]⟩ ⟨2, ![K, H]⟩ ⟨2, ![n, H]⟩) (hD1 : D1 = DotDims.plain n K H)
    (D2 : DotDims ⟨2, ![n, H]⟩ ⟨2, ![H, C]⟩ ⟨2, ![n, C]⟩) (hD2 : D2 = DotDims.plain n H C)
    (hlt : FTy.bits .bf16 < FTy.bits .f32) (hb : (⟨2, ![1, H]⟩ : Shape).Broadcasts ⟨2, ![n, H]⟩)
    (x : FVec Ideal ⟨2, ![n, K]⟩ .f32) (A : FVec Ideal ⟨2, ![K, H]⟩ .bf16) (a : FVec Ideal ⟨2, ![1, H]⟩ .f32)
    (B : FVec Ideal ⟨2, ![H, C]⟩ .bf16) :
    truncf .bf16 (matmul D2 none
        (truncf .bf16 (addf (matmul D1 none (truncf .bf16 x hlt) A (constant ⟨2, ![n, H]⟩ .f32 0x00000000#32))
          (broadcastTo ⟨2, ![n, H]⟩ a hb)) hlt)
        B (constant ⟨2, ![n, C]⟩ .f32 0x00000000#32)) hlt
      = affineLinear x A a B := by
  funext j
  obtain ⟨p, q, rfl⟩ : ∃ (p : Fin n) (q : Fin C), j = ix2 p q := ⟨j 0, j 1, eq_ix2 j⟩
  rw [affineLinear_apply]
  refine (matmul_cols_apply D2 hD2 none _ B p q).trans ?_
  refine Finset.sum_congr rfl fun k _ => congrArg (· * B (ix2 k q)) ?_
  exact congrArg₂ (· + ·) (matmul_cols_apply D1 hD1 none _ A p k) (broadcastTo_1b_ab_apply a hb p k)

/-- The host's spelling on the whole array: product, bias, product. -/
theorem host_affineLinear (D1 : DotDims ⟨2, ![n, K]⟩ ⟨2, ![K, H]⟩ ⟨2, ![n, H]⟩) (hD1 : D1 = DotDims.plain n K H)
    (D2 : DotDims ⟨2, ![n, H]⟩ ⟨2, ![H, C]⟩ ⟨2, ![n, C]⟩) (hD2 : D2 = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (x : FVec Ideal ⟨2, ![n, K]⟩ .f32) (A : FVec Ideal ⟨2, ![K, H]⟩ .f32) (a : FVec Ideal ⟨1, ![H]⟩ .f32)
    (B : FVec Ideal ⟨2, ![H, C]⟩ .f32) :
    Host.dotGeneral D2 none
        (addf (Host.dotGeneral D1 none x A)
          (broadcastInDim ⟨2, ![n, H]⟩ ![0, 1] h2 (broadcastInDim ⟨2, ![1, H]⟩ ![1] h1 a))) B
      = affineLinear x A (row a) B := by
  funext j
  obtain ⟨p, q, rfl⟩ : ∃ (p : Fin n) (q : Fin C), j = ix2 p q := ⟨j 0, j 1, eq_ix2 j⟩
  rw [affineLinear_apply]
  refine (dotGeneral_cols_apply D2 hD2 none .single _ B p q).trans ?_
  refine Finset.sum_congr rfl fun k _ => congrArg (· * B (ix2 k q)) ?_
  exact congrArg₂ (· + ·) (dotGeneral_cols_apply D1 hD1 none .single x A p k) (bias_rows_apply a h1 h2 p k)

/-! ## `max (y + b) 0 · W` and `max (y + b) 0 · W + c` -/

/-- The kernel's spelling on a block: bias row, maximum with the splat of the float zero, round, product, round. -/
theorem kernel_reluLinear (D : DotDims ⟨2, ![n, H]⟩ ⟨2, ![H, C]⟩ ⟨2, ![n, C]⟩) (hD : D = DotDims.plain n H C)
    (hlt : FTy.bits .bf16 < FTy.bits .f32) (hb : (⟨2, ![1, H]⟩ : Shape).Broadcasts ⟨2, ![n, H]⟩)
    (y : FVec Ideal ⟨2, ![n, H]⟩ .f32) (b : FVec Ideal ⟨2, ![1, H]⟩ .f32) (W : FVec Ideal ⟨2, ![H, C]⟩ .bf16) :
    truncf .bf16 (matmul D none
        (truncf .bf16 (maximumf (addf y (broadcastTo ⟨2, ![n, H]⟩ b hb))
          (broadcast ⟨2, ![n, H]⟩ (FloatOps.ofBits (F := Ideal) .f32 0x00000000#32))) hlt)
        W (constant ⟨2, ![n, C]⟩ .f32 0x00000000#32)) hlt
      = reluLinear y b W := by
  funext j
  obtain ⟨p, q, rfl⟩ : ∃ (p : Fin n) (q : Fin C), j = ix2 p q := ⟨j 0, j 1, eq_ix2 j⟩
  rw [reluLinear_apply]
  refine (matmul_cols_apply D hD none _ W p q).trans ?_
  refine Finset.sum_congr rfl fun k _ => congrArg (· * W (ix2 k q)) ?_
  show max (y (ix2 p k) + broadcastTo ⟨2, ![n, H]⟩ b hb (ix2 p k)) (FloatOps.ofBits (F := Ideal) .f32 0x00000000#32) = _
  rw [broadcastTo_1b_ab_apply b hb p k, ofBits_zero]

/-- The kernel's spelling with the output bias: the same, then the output's bias row over the rows. -/
theorem kernel_reluAffine (D : DotDims ⟨2, ![n, H]⟩ ⟨2, ![H, C]⟩ ⟨2, ![n, C]⟩) (hD : D = DotDims.plain n H C)
    (hlt : FTy.bits .bf16 < FTy.bits .f32) (hb : (⟨2, ![1, H]⟩ : Shape).Broadcasts ⟨2, ![n, H]⟩)
    (hc : (⟨2, ![1, C]⟩ : Shape).Broadcasts ⟨2, ![n, C]⟩)
    (y : FVec Ideal ⟨2, ![n, H]⟩ .f32) (b : FVec Ideal ⟨2, ![1, H]⟩ .f32) (W : FVec Ideal ⟨2, ![H, C]⟩ .bf16)
    (c : FVec Ideal ⟨2, ![1, C]⟩ .f32) :
    addf (matmul D none
        (truncf .bf16 (maximumf (addf y (broadcastTo ⟨2, ![n, H]⟩ b hb))
          (broadcast ⟨2, ![n, H]⟩ (FloatOps.ofBits (F := Ideal) .f32 0x00000000#32))) hlt)
        W (constant ⟨2, ![n, C]⟩ .f32 0x00000000#32)) (broadcastTo ⟨2, ![n, C]⟩ c hc)
      = reluAffine y b W c := by
  funext j
  obtain ⟨p, q, rfl⟩ : ∃ (p : Fin n) (q : Fin C), j = ix2 p q := ⟨j 0, j 1, eq_ix2 j⟩
  rw [reluAffine_apply]
  refine congrArg₂ (· + ·) ?_ (broadcastTo_1b_ab_apply c hc p q)
  exact congrFun (kernel_reluLinear D hD hlt hb y b W) (ix2 p q)

/-- The host's spelling: bias, maximum with a splat of the float zero, product. -/
theorem host_reluLinear (D : DotDims ⟨2, ![n, H]⟩ ⟨2, ![H, C]⟩ ⟨2, ![n, C]⟩) (hD : D = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (h0 : (⟨0, ![]⟩ : Shape).BroadcastsInDim ⟨2, ![n, H]⟩ ![])
    (y : FVec Ideal ⟨2, ![n, H]⟩ .f32) (b : FVec Ideal ⟨1, ![H]⟩ .f32) (W : FVec Ideal ⟨2, ![H, C]⟩ .f32) :
    Host.dotGeneral D none
        (maximumf (addf y (broadcastInDim ⟨2, ![n, H]⟩ ![0, 1] h2 (broadcastInDim ⟨2, ![1, H]⟩ ![1] h1 b)))
          (broadcastInDim ⟨2, ![n, H]⟩ ![] h0 (constant (F := Ideal) ⟨0, ![]⟩ .f32 0x00000000#32))) W
      = reluLinear y (row b) W := by
  funext j
  obtain ⟨p, q, rfl⟩ : ∃ (p : Fin n) (q : Fin C), j = ix2 p q := ⟨j 0, j 1, eq_ix2 j⟩
  rw [reluLinear_apply]
  refine (dotGeneral_cols_apply D hD none .single _ W p q).trans ?_
  refine Finset.sum_congr rfl fun k _ => congrArg (· * W (ix2 k q)) ?_
  show max (y (ix2 p k) + broadcastInDim ⟨2, ![n, H]⟩ ![0, 1] h2 (broadcastInDim ⟨2, ![1, H]⟩ ![1] h1 b) (ix2 p k))
      (broadcastInDim ⟨2, ![n, H]⟩ ![] h0 (constant (F := Ideal) ⟨0, ![]⟩ .f32 0x00000000#32) (ix2 p k)) = _
  rw [bias_rows_apply b h1 h2 p k, zeros_apply]

/-- The host's spelling with the output bias. -/
theorem host_reluAffine (D : DotDims ⟨2, ![n, H]⟩ ⟨2, ![H, C]⟩ ⟨2, ![n, C]⟩) (hD : D = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (h0 : (⟨0, ![]⟩ : Shape).BroadcastsInDim ⟨2, ![n, H]⟩ ![])
    (g1 : (⟨1, ![C]⟩ : Shape).BroadcastsInDim ⟨2, ![1, C]⟩ ![1])
    (g2 : (⟨2, ![1, C]⟩ : Shape).BroadcastsInDim ⟨2, ![n, C]⟩ ![0, 1])
    (y : FVec Ideal ⟨2, ![n, H]⟩ .f32) (b : FVec Ideal ⟨1, ![H]⟩ .f32) (W : FVec Ideal ⟨2, ![H, C]⟩ .f32)
    (c : FVec Ideal ⟨1, ![C]⟩ .f32) :
    addf (Host.dotGeneral D none
        (maximumf (addf y (broadcastInDim ⟨2, ![n, H]⟩ ![0, 1] h2 (broadcastInDim ⟨2, ![1, H]⟩ ![1] h1 b)))
          (broadcastInDim ⟨2, ![n, H]⟩ ![] h0 (constant (F := Ideal) ⟨0, ![]⟩ .f32 0x00000000#32))) W)
        (broadcastInDim ⟨2, ![n, C]⟩ ![0, 1] g2 (broadcastInDim ⟨2, ![1, C]⟩ ![1] g1 c))
      = reluAffine y (row b) W (row c) := by
  funext j
  obtain ⟨p, q, rfl⟩ : ∃ (p : Fin n) (q : Fin C), j = ix2 p q := ⟨j 0, j 1, eq_ix2 j⟩
  rw [reluAffine_apply]
  refine congrArg₂ (· + ·) ?_ (bias_rows_apply c g1 g2 p q)
  exact congrFun (host_reluLinear D hD h1 h2 h0 y b W) (ix2 p q)

end Gcn.LayerOps

end
-- ==== Proof.HiddenLayer.lean ====
/-
  The hidden layer's bias and positive part, from blocks of rows to the whole array.

  The second region of the program walks an array `A` of 100000 rows and 32 columns in 25 blocks of 4000 consecutive
  rows. At each block it also holds the whole one-row array `b`, and writes back, in the block's place in the output,
  `max (Y + b) 0` of the block `Y`: every row of the block gets the row `b` added, and every entry its positive part.
  Entry `(r, q)` of `max (A + b) 0` reads `A[r, q]` and `b[0, q]` and nothing else, so what a block writes back is the
  block of `max (A + b) 0` at the same rows. The 25 blocks are rows `0 … 3999`, `4000 … 7999`, …, and row `r` lies in
  block `r / 4000`; together they are all the rows. So the output array ends as `max (A + b) 0` everywhere.
-/
import proofs.«123936_j77275051590253_1_alg».proof.Proof.Gen.KernelIdeal.Frame
import proofs.«123936_j77275051590253_1_alg».proof.Proof.LibDenseSteps
import proofs.«123936_j77275051590253_1_alg».proof.Proof.LibRowLayerOps
import Idealize.ShloMosaic.Lib.Pipeline.Value
import Idealize.ShloMosaic.Lib.ValueLayout

noncomputable section

namespace Gcn.HiddenLayer

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset pair `(0, 0)` is the constant zero offset. -/
theorem zero_offsets : (![0, 0] : Fin 2 → Nat) = fun _ => 0 := funext fun a => by fin_cases a <;> rfl

/-- Where the blocks sit, at each of the 25 points: the input block and the output block have the same row-block number,
    which is at most 24; neither is offset along the columns; and the one-row array is taken whole, at block `(0, 0)`. -/
theorem block_index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Each of the 25 row blocks of the output is written at some point. -/
theorem block_index_onto : ∀ q : Fin 25, ∃ t : Fin cfg1.N, win1_2.index t = ![q.val, 0] :=
  (by decide +kernel : ∀ q : Fin 25, ∃ t : Fin grid1.N, win1_2.index t = ![q.val, 0])

/-- What the body computes from the one-row array `b` and a block `y` of 4000 rows: `b` is repeated over the 4000 rows
    and added to `y`, and each entry is compared with zero and the larger kept. Entry `(p, q)` is
    `max (y[p, q] + b[0, q]) 0`. -/
theorem payload_eq (b : Vec Ideal S1x32 .f32) (y : Vec Ideal S4000x32 .f32) :
    k1_pay1 (F := Ideal) b y = Gcn.Steps.relu (Gcn.Steps.addRow (n := 4000) (H := 32) y b) := by
  funext j
  obtain ⟨p, q, rfl⟩ : ∃ (p : Fin 4000) (q : Fin 32), j = ix2 p q := ⟨j 0, j 1, eq_ix2 j⟩
  unfold k1_pay1
  rw [Gcn.Steps.relu_apply, Gcn.Steps.addRow_apply]
  show max (shapeCast S4000x32 y shapeCasts_S4000x32_S4000x32 (ix2 p q)
      + broadcastTo S4000x32 (shapeCast S1x32 (shapeCast S1x32 b shapeCasts_S1x32_S1x32) shapeCasts_S1x32_S1x32)
          broadcasts_S1x32_S4000x32 (ix2 p q))
      (FloatOps.ofBits (F := Ideal) .f32 0x00000000#32) = _
  rw [shapeCast_self, shapeCast_self, shapeCast_self, broadcastTo_1b_ab_apply, Gcn.LayerOps.ofBits_zero]

/-- What point `t` writes back is the block of `max (A + b) 0` at the output block's rows. Row `p` of the input block is
    row `o · 4000 + p` of `A`, where `o` is the block number, the same for input and output; the one-row block is `b`
    itself; and entry `(p, q)` of the positive part of the sum reads row `p` of the block only. -/
theorem flushed_eq (c : Dev nD) (t : Fin cfg1.N) :
    (dat1 (F := Ideal) V c).flushed 2 t
      = ((cfg1.win 2).blk t).view.read (Elt Ideal)
          (Gcn.Steps.relu (Gcn.Steps.addRow (n := 100000) (H := 32) (V c main_v43) (V c main_v44))) := by
  show (cfg1.win 2).cut (grid1.coords t) ((dat1 V c).after 2 t) = _
  rw [after1_2]
  unfold out1_2
  rw [View.canon_unit_zero zero_offsets]
  simp only [View.ld_unit_zero (S := S4000x32) zero_offsets, View.ld_unit_zero (S := S1x32) zero_offsets]
  rw [payload_eq (iblk1 V c 1 t) (iblk1 V c 0 t)]
  obtain ⟨e0, e1, e2, e3, e4, e5⟩ := block_index_facts t
  funext j
  obtain ⟨p, q, rfl⟩ : ∃ (p : Fin 4000) (q : Fin 32), j = ix2 p q := ⟨j 0, j 1, eq_ix2 j⟩
  have hp : p.val < 4000 := p.isLt
  have hq : q.val < 32 := q.isLt
  -- entry (p, q) of the output block is entry (o · 4000 + p, q) of the output array
  have hemb : ((cfg1.win 2).blk t).view.emb (ix2 p q)
      = ix2 (⟨win1_2.index t (0 : Fin 2) * 4000 + p.val, by omega⟩ : Fin 100000) q := by
    funext a; apply Fin.ext
    match a with
    | ⟨0, _⟩ => show win1_2.index t (0 : Fin 2) * 4000 + 1 * p.val = win1_2.index t (0 : Fin 2) * 4000 + p.val; omega
    | ⟨1, _⟩ => show win1_2.index t (1 : Fin 2) * 32 + 1 * q.val = q.val; omega
  show Gcn.Steps.relu (Gcn.Steps.addRow (n := 4000) (H := 32) (iblk1 V c 0 t) (iblk1 V c 1 t)) (ix2 p q)
      = Gcn.Steps.relu (Gcn.Steps.addRow (n := 100000) (H := 32) (V c main_v43) (V c main_v44))
          (((cfg1.win 2).blk t).view.emb (ix2 p q))
  rw [hemb]
  -- the one-row block is the whole one-row array
  have hbias : (iblk1 V c 1 t : S1x32.Idx → EReal) = V c main_v44 := by
    funext k
    show V c main_v44 (((cfg1.win 1).blk t).view.emb k) = V c main_v44 k
    refine congrArg (V c main_v44) ?_
    funext a; apply Fin.ext
    match a with
    | ⟨0, _⟩ => show win1_1.index t (0 : Fin 2) * 1 + 1 * (k 0).val = (k 0).val; omega
    | ⟨1, _⟩ => show win1_1.index t (1 : Fin 2) * 32 + 1 * (k 1).val = (k 1).val; omega
  -- row p of the input block is row o · 4000 + p of the input array
  have hrow : ∀ k : Fin 32, iblk1 V c 0 t (ix2 p k)
      = V c main_v43 (ix2 (⟨win1_2.index t (0 : Fin 2) * 4000 + p.val, by omega⟩ : Fin 100000) k) := by
    intro k
    show V c main_v43 (((cfg1.win 0).blk t).view.emb (ix2 p k)) = _
    refine congrArg (V c main_v43) ?_
    funext a; apply Fin.ext
    match a with
    | ⟨0, _⟩ => show win1_0.index t (0 : Fin 2) * 4000 + 1 * p.val = win1_2.index t (0 : Fin 2) * 4000 + p.val; omega
    | ⟨1, _⟩ => show win1_0.index t (1 : Fin 2) * 32 + 1 * k.val = k.val; omega
  rw [hbias]
  exact Gcn.Steps.relu_block _ _ p _
    (fun k => Gcn.Steps.addRow_block (V c main_v43) (iblk1 V c 0 t) (V c main_v44) p _ hrow k) q

/-- An entry of the output array lies in point `t`'s block exactly when, on each axis, its coordinate lies in the block's
    range: block number times block length, up to one block length further. -/
theorem mem_block (t : Fin cfg1.N) (i : S100000x32.Idx) :
    i ∈ ((cfg1.win 2).blk t).view.set ↔ ∀ a : Fin 2, win1_2.index t a * S4000x32.size a ≤ (i a).val
      ∧ (i a).val < win1_2.index t a * S4000x32.size a + S4000x32.size a := by
  show i ∈ ((View.whole main_v45).slice (win1_2.rect t)).set ↔ _
  rw [View.set_slice_whole, Rect.mem_set_unit]
  exact Iff.rfl

/-- Every entry of the output array is written back at some point: row `r` lies in row block `r / 4000`, which is one of
    the 25, and a block spans all 32 columns. -/
theorem covered (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := block_index_onto ⟨(i 0).val / 4000, by omega⟩
  have q0 : win1_2.index t (0 : Fin 2) = (i 0).val / 4000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 4000 ≤ (i 0).val ∧ (i 0).val < win1_2.index t (0 : Fin 2) * 4000 + 4000
    omega
  | ⟨1, _⟩ =>
    show win1_2.index t (1 : Fin 2) * 32 ≤ (i 1).val ∧ (i 1).val < win1_2.index t (1 : Fin 2) * 32 + 32
    omega

/-- After all 25 points the output array is `max (A + b) 0`: every block written back is the block of that array, and
    the blocks are all of it. -/
theorem array_eq (c : Dev nD) :
    (dat1 (F := Ideal) V c).arrAt 2 cfg1.N
      = Gcn.Steps.relu (Gcn.Steps.addRow (n := 100000) (H := 32) (V c main_v43) (V c main_v44)) :=
  (dat1 V c).arrAt_eq_of_cover 2 _ (fun t _ => flushed_eq V c t) covered

end Gcn.HiddenLayer

end
-- ==== Proof.SecondProduct.lean ====
/-
  The second dense layer of the network: the hidden array times the second weight matrix.

  The hidden array `h` has 100000 rows of 32 features and the weight matrix `W` is 32 × 16; the layer's result is the
  100000 × 16 array whose entry `(r, q)` is `Σ_k h[r,k] · W[k,q]`. As in the first layer the program walks the rows in
  25 blocks of 4000 consecutive rows: at block `t` it holds rows `4000·t … 4000·t + 3999` of `h` and the whole of `W`,
  multiplies them, and writes the 4000 × 16 result over the same rows of the output. Entry `(r, q)` of a product reads
  row `r` of the left factor only, so the product of a block of rows is the block of the product; every row lies in
  exactly one block (`r / 4000`), so after the 25 blocks the output array is the product of the whole arrays. Before
  multiplying, the block of `h` is reshaped onto its own shape, which moves nothing, and both factors are narrowed to
  a shorter format, which over the extended reals changes nothing; the accumulator starts at zero.
-/
import proofs.«123936_j77275051590253_1_alg».proof.Proof.Gen.KernelIdeal.Frame
import proofs.«123936_j77275051590253_1_alg».proof.Proof.LibDenseSteps
import proofs.«123936_j77275051590253_1_alg».proof.Proof.LibDotCols
import Idealize.ShloMosaic.Lib.Pipeline.Value

noncomputable section

open scoped BigOperators

namespace Gcn.SecondProduct

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset pair `(0, 0)` is the constant-zero offset. -/
theorem zero_offsets : (![0, 0] : Fin 2 → Nat) = fun _ => 0 := funext fun a => by fin_cases a <;> rfl

/-- Where the three blocks sit at each of the 25 steps: the block of `h` is in the same block-row as the output's and
    in block-column 0; the weight matrix is taken whole (block `(0, 0)`); the output's block is in block-column 0 and
    its block-row is at most 24. -/
theorem index_facts : ∀ t : Fin cfg2.N,
    win2_0.index t (0 : Fin 2) = win2_2.index t (0 : Fin 2) ∧ win2_0.index t (1 : Fin 2) = 0
      ∧ win2_1.index t (0 : Fin 2) = 0 ∧ win2_1.index t (1 : Fin 2) = 0
      ∧ win2_2.index t (1 : Fin 2) = 0 ∧ win2_2.index t (0 : Fin 2) ≤ 24 :=
  (by decide +kernel : ∀ t : Fin grid2.N, _)

/-- Each of the 25 block-rows of the output is written at some step. -/
theorem index_onto : ∀ q : Fin 25, ∃ t : Fin cfg2.N, win2_2.index t = ![q.val, 0] :=
  (by decide +kernel : ∀ q : Fin 25, ∃ t : Fin grid2.N, win2_2.index t = ![q.val, 0])

/-- What one step computes from the blocks it holds, at entry `(p, q)`: the product's entry
    `Σ_k X[p,k] · W[k,q]`. The reshape of `X` onto its own shape is the identity, and narrowing either factor
    changes nothing over the extended reals. -/
theorem payload_apply (X : Vec Ideal S4000x32 .f32) (W : Vec Ideal S32x16 .f32) (p : Fin 4000) (q : Fin 16) :
    k2_pay1 X W (ix2 p q) = Gcn.Steps.product (n := 4000) (K := 32) (H := 16) X W (ix2 p q) := by
  have e : shapeCast S4000x32 X shapeCasts_S4000x32_S4000x32 = X := shapeCast_self X shapeCasts_S4000x32_S4000x32
  unfold k2_pay1
  refine (Cert.Lib.DotCols.matmul_cols_apply dot_S4000x32_S32x16_S4000x16_1_0_0_1_n_n rfl none
    (truncf .bf16 (shapeCast S4000x32 X shapeCasts_S4000x32_S4000x32) bitsLt_bf16_f32)
    (truncf .bf16 W bitsLt_bf16_f32) p q).trans ?_
  exact congrArg (fun Y : S4000x32.Idx → EReal => Gcn.Steps.product (n := 4000) (K := 32) (H := 16) Y W (ix2 p q)) e

/-! ## Where a block's entries sit in the arrays

  A block's entry `(p, k)` sits in its array at row `(block-row) · 4000 + p` and column `(block-column) · width + k`. -/

/-- Row `p` of the block of `h` held at step `t` is row `r` of `h`, when `r` is the output's block-row times 4000
    plus `p`; the columns are `h`'s own. -/
theorem features_at (t : Fin cfg2.N) (p : Fin 4000) (k : Fin 32) (r : Fin 100000)
    (hr : r.val = win2_2.index t (0 : Fin 2) * 4000 + p.val) :
    ((cfg2.win 0).blk t).view.emb (ix2 p k) = (ix2 r k : S100000x32.Idx) := by
  obtain ⟨e0, e1, -⟩ := index_facts t
  funext a; apply Fin.ext
  match a with
  | ⟨0, _⟩ => show win2_0.index t (0 : Fin 2) * 4000 + 1 * p.val = r.val; omega
  | ⟨1, _⟩ => show win2_0.index t (1 : Fin 2) * 32 + 1 * k.val = k.val; omega

/-- The weight matrix is held whole at every step: its block's entry `y` is the matrix's entry `y`. -/
theorem weights_at (t : Fin cfg2.N) (y : S32x16.Idx) : ((cfg2.win 1).blk t).view.emb y = y := by
  obtain ⟨-, -, e2, e3, -⟩ := index_facts t
  funext a; apply Fin.ext
  match a with
  | ⟨0, _⟩ => show win2_1.index t (0 : Fin 2) * 32 + 1 * (y 0).val = (y 0).val; omega
  | ⟨1, _⟩ => show win2_1.index t (1 : Fin 2) * 16 + 1 * (y 1).val = (y 1).val; omega

/-- Row `p` of the output's block at step `t` is row `r` of the output, for the same `r`. -/
theorem result_at (t : Fin cfg2.N) (p : Fin 4000) (q : Fin 16) (r : Fin 100000)
    (hr : r.val = win2_2.index t (0 : Fin 2) * 4000 + p.val) :
    ((cfg2.win 2).blk t).view.emb (ix2 p q) = (ix2 r q : S100000x16.Idx) := by
  obtain ⟨-, -, -, -, e4, -⟩ := index_facts t
  funext a; apply Fin.ext
  match a with
  | ⟨0, _⟩ => show win2_2.index t (0 : Fin 2) * 4000 + 1 * p.val = r.val; omega
  | ⟨1, _⟩ => show win2_2.index t (1 : Fin 2) * 16 + 1 * q.val = q.val; omega

/-- One step, over any arrays: if row `p` of the held block `X` is row `r` of `x` and the held matrix is `w`, the step's
    entry `(p, q)` is the whole product's entry `(r, q)`. -/
theorem step_entry (x : S100000x32.Idx → EReal) (w : S32x16.Idx → EReal) (X : Vec Ideal S4000x32 .f32)
    (W : Vec Ideal S32x16 .f32) (p : Fin 4000) (q : Fin 16) (r : Fin 100000)
    (hX : ∀ k : Fin 32, X (ix2 p k) = x (ix2 r k)) (hW : W = w) :
    k2_pay1 X W (ix2 p q) = Gcn.Steps.product (n := 100000) (K := 32) (H := 16) x w (ix2 r q) := by
  subst hW
  exact (payload_apply X W p q).trans (Gcn.Steps.product_block x X W p r hX q)

/-! ## What each step writes, and the whole array -/

/-- WHAT STEP `t` WRITES BACK is block `t` of the product of the whole arrays. -/
theorem flushed_eq (c : Dev nD) (t : Fin cfg2.N) :
    (dat2 (F := Ideal) V c).flushed 2 t
      = ((cfg2.win 2).blk t).view.read (Elt Ideal)
          (Gcn.Steps.product (n := 100000) (K := 32) (H := 16) (V c main_v45) (V c main_arg4)) := by
  show (cfg2.win 2).cut (grid2.coords t) ((dat2 (F := Ideal) V c).after 2 t) = _
  rw [after2_2]
  unfold out2_2
  rw [View.canon_unit_zero zero_offsets]
  simp only [View.ld_unit_zero (S := S4000x32) zero_offsets, View.ld_unit_zero (S := S32x16) zero_offsets]
  obtain ⟨-, -, -, -, -, e5⟩ := index_facts t
  funext j
  obtain ⟨p, q, rfl⟩ : ∃ (p : Fin 4000) (q : Fin 16), j = ix2 p q := ⟨j 0, j 1, eq_ix2 j⟩
  have hr : win2_2.index t (0 : Fin 2) * 4000 + p.val < 100000 := by have := p.isLt; omega
  show k2_pay1 (iblk2 V c 0 t) (iblk2 V c 1 t) (ix2 p q)
    = Gcn.Steps.product (n := 100000) (K := 32) (H := 16) (V c main_v45) (V c main_arg4)
        (((cfg2.win 2).blk t).view.emb (ix2 p q))
  rw [result_at t p q ⟨_, hr⟩ rfl]
  refine step_entry (V c main_v45) (V c main_arg4) (iblk2 V c 0 t) (iblk2 V c 1 t) p q ⟨_, hr⟩ ?_ ?_
  · intro k
    show V c main_v45 (((cfg2.win 0).blk t).view.emb (ix2 p k)) = _
    rw [features_at t p k ⟨_, hr⟩ rfl]
  · funext y
    show V c main_arg4 (((cfg2.win 1).blk t).view.emb y) = V c main_arg4 y
    rw [weights_at t y]

/-- An entry of the output array is in step `t`'s block iff each coordinate is in the block's range on its axis. -/
theorem mem_block (t : Fin cfg2.N) (i : S100000x16.Idx) :
    i ∈ ((cfg2.win 2).blk t).view.set ↔ ∀ a : Fin 2, win2_2.index t a * S4000x16.size a ≤ (i a).val
      ∧ (i a).val < win2_2.index t a * S4000x16.size a + S4000x16.size a := by
  show i ∈ ((View.whole main_v46).slice (win2_2.rect t)).set ↔ _
  rw [View.set_slice_whole, Rect.mem_set_unit]
  exact Iff.rfl

/-- Every entry of the output array is written: row `r` at the step whose block-row is `r / 4000`. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := index_onto ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_block]
  intro a
  match a with
  | ⟨0, _⟩ =>
    show win2_2.index t (0 : Fin 2) * 4000 ≤ (i 0).val ∧ (i 0).val < win2_2.index t (0 : Fin 2) * 4000 + 4000
    omega
  | ⟨1, _⟩ =>
    show win2_2.index t (1 : Fin 2) * 16 ≤ (i 1).val ∧ (i 1).val < win2_2.index t (1 : Fin 2) * 16 + 16
    omega

/-- THE SECOND LAYER'S ARRAY after its 25 steps is the product of the hidden array and the second weight matrix. -/
theorem array_eq (c : Dev nD) :
    (dat2 (F := Ideal) V c).arrAt 2 cfg2.N
      = Gcn.Steps.product (n := 100000) (K := 32) (H := 16) (V c main_v45) (V c main_arg4) :=
  (dat2 (F := Ideal) V c).arrAt_eq_of_cover 2 _ (fun t _ => flushed_eq V c t) cover

end Gcn.SecondProduct

end
-- ==== Proof.LibLogSoftmaxRows.lean ====
/-
  The logarithm of a row softmax as the two programs spell it, for any number of rows and columns.

  Both take each row's maximum from −∞ (the kernel by a lane reduction that keeps its axis as one column, the host by a
  `reduce` followed by a maximum with a splat of −∞, which changes nothing), subtract it, exponentiate, sum along the row
  from zero, take the logarithm and subtract it. A fold of `max` from the bottom element over a row is the row's supremum,
  in any order; a sum from zero is the row's sum. So both are `Layers.logSoftmaxRows`.
-/
import proofs.«123936_j77275051590253_1_alg».proof.Proof.LibRowLayerOps

noncomputable section

open scoped BigOperators

namespace Gcn.SoftmaxOps

open Idealize.ShloMosaic Idealize.ShloMosaic.ValueIdx Gcn.Layers Gcn.LayerOps

variable {n C : ℕ}

/-- Whatever spells them: if `M` holds each row's maximum on every column and `T` the logarithm of the row's sum of
    `exp (z − M)`, then `(z − M) − T` is the logarithm of the row softmax. -/
theorem logSoftmax_of_parts (z M T : (⟨2, ![n, C]⟩ : Shape).Idx → EReal)
    (hM : ∀ (p : Fin n) (q : Fin C), M (ix2 p q) = rowMax z p)
    (hT : ∀ (p : Fin n) (q : Fin C), T (ix2 p q) = Ideal.log (∑ j : Fin C, Ideal.exp (z (ix2 p j) - M (ix2 p j)))) :
    subf (F := Ideal) (φ := .f32) (subf (F := Ideal) (φ := .f32) z M) T = logSoftmaxRows z := by
  funext j
  obtain ⟨p, q, rfl⟩ : ∃ (p : Fin n) (q : Fin C), j = ix2 p q := ⟨j 0, j 1, eq_ix2 j⟩
  rw [logSoftmaxRows_apply]
  show (z (ix2 p q) - M (ix2 p q)) - T (ix2 p q) = _
  rw [hM p q, hT p q]
  refine congrArg (fun s => (z (ix2 p q) - rowMax z p) - Ideal.log s) (Finset.sum_congr rfl fun j _ => ?_)
  rw [hM p j]

/-! ## The kernel's spelling -/

/-- A vector of per-row values kept as one column and spread over the columns: entry `(p, q)` is row `p`'s value. -/
theorem column_spread_apply (v : (⟨1, ![n]⟩ : Shape).Idx → EReal) (hsc : (⟨1, ![n]⟩ : Shape).ShapeCasts ⟨2, ![n, 1]⟩)
    (hbc : (⟨2, ![n, 1]⟩ : Shape).Broadcasts ⟨2, ![n, C]⟩) (p : Fin n) (q : Fin C) :
    broadcastTo ⟨2, ![n, C]⟩ (shapeCast ⟨2, ![n, 1]⟩ v hsc) hbc (ix2 p q) = v (ix1 p) :=
  (LaneRows.broadcastTo_col_apply _ hbc p q).trans (HostMax.shapeCast_col_apply v hsc (ix2 p (0 : Fin 1)) p rfl)

/-- The kernel's logarithm of a row softmax on a block. -/
theorem kernel_logSoftmaxRows (hr : (⟨2, ![n, C]⟩ : Shape).Reduces [1] ⟨1, ![n]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hsc : (⟨1, ![n]⟩ : Shape).ShapeCasts ⟨2, ![n, 1]⟩) (hbc : (⟨2, ![n, 1]⟩ : Shape).Broadcasts ⟨2, ![n, C]⟩)
    (z : FVec Ideal ⟨2, ![n, C]⟩ .f32) :
    subf (subf z (broadcastTo ⟨2, ![n, C]⟩
        (shapeCast ⟨2, ![n, 1]⟩ (multiReduction .maximumf [1] ⟨1, ![n]⟩ z 0xFF800000#32 hr hφ hmax) hsc) hbc))
      (broadcastTo ⟨2, ![n, C]⟩ (log (shapeCast ⟨2, ![n, 1]⟩ (multiReduction .add [1] ⟨1, ![n]⟩
        (exp (subf z (broadcastTo ⟨2, ![n, C]⟩
          (shapeCast ⟨2, ![n, 1]⟩ (multiReduction .maximumf [1] ⟨1, ![n]⟩ z 0xFF800000#32 hr hφ hmax) hsc) hbc)))
        0x00000000#32 hr hφ hadd) hsc)) hbc)
      = logSoftmaxRows z := by
  refine logSoftmax_of_parts z _ _ (fun p q => ?_) (fun p q => ?_)
  · exact (column_spread_apply _ hsc hbc p q).trans (HostMax.multiReduction_rows z hr hφ hmax p)
  · refine (LaneRows.broadcastTo_col_apply _ hbc p q).trans ?_
    show Ideal.log (shapeCast ⟨2, ![n, 1]⟩ _ hsc (ix2 p (0 : Fin 1))) = _
    rw [HostMax.shapeCast_col_apply _ hsc (ix2 p (0 : Fin 1)) p rfl, LaneRows.multiReduction_add_rows _ _ hr hφ hadd p]
    rfl

/-! ## The host's spelling -/

/-- A vector of per-row values set as one column (`dims = [0]`) and repeated over the columns (`dims = [0, 1]`). -/
theorem column_bcast_apply (v : (⟨1, ![n]⟩ : Shape).Idx → EReal)
    (b1 : (⟨1, ![n]⟩ : Shape).BroadcastsInDim ⟨2, ![n, 1]⟩ ![0])
    (b2 : (⟨2, ![n, 1]⟩ : Shape).BroadcastsInDim ⟨2, ![n, C]⟩ ![0, 1]) (p : Fin n) (q : Fin C) :
    broadcastInDim ⟨2, ![n, C]⟩ ![0, 1] b2 (broadcastInDim ⟨2, ![n, 1]⟩ ![0] b1 v) (ix2 p q) = v (ix1 p) := by
  refine (broadcastInDim_apply _ b2 _ (ix2 p q) (ix2 p (0 : Fin 1)) fun ax => ?_).trans ?_
  · match ax with
    | ⟨0, _⟩ =>
      show p.val = if n = 1 then 0 else p.val
      split
      · have := p.isLt; omega
      · rfl
    | ⟨1, _⟩ => show (0 : ℕ) = if (1 : ℕ) = 1 then 0 else q.val; rw [if_pos rfl]
  · refine broadcastInDim_apply _ b1 v (ix2 p (0 : Fin 1)) (ix1 p) fun ax => ?_
    match ax with
    | ⟨0, _⟩ =>
      show p.val = if n = 1 then 0 else p.val
      split
      · have := p.isLt; omega
      · rfl

/-- The host's sum along each row, from zero. -/
theorem host_rowSum (x : FVec Ideal ⟨2, ![n, C]⟩ .f32) (hred : (⟨2, ![n, C]⟩ : Shape).ReducesTo [1] ⟨1, ![n]⟩)
    (hr : (⟨2, ![n, C]⟩ : Shape).Reduces [1] ⟨1, ![n]⟩) (hu : 0 < (⟨0, ![]⟩ : Shape).numel) (p : Fin n) :
    Host.reduceAdd x (constant (F := Ideal) ⟨0, ![]⟩ .f32 0x00000000#32) hred hu (ix1 p) = ∑ k : Fin C, x (ix2 p k) := by
  refine (Ideal.hostReduceAdd_single hred hr x _ (ix1 p)).trans ?_
  have hf : (x ∘ hr.lift (ix1 p)) = fun k : Fin C => x (ix2 p k) :=
    funext fun k => congrArg x (HostMax.lift_rows hr p k)
  rw [show constant (F := Ideal) ⟨0, ![]⟩ .f32 0x00000000#32 (Shape.Idx.first hu) = (0 : EReal) from ofBits_zero, zero_add]
  exact congrArg (fun f => ∑ k : Fin C, f k) hf

/-- The host's maximum along each row, from −∞, then once more against a splat of −∞: the row's supremum. -/
theorem host_rowMax (z : FVec Ideal ⟨2, ![n, C]⟩ .f32) (hred : (⟨2, ![n, C]⟩ : Shape).ReducesTo [1] ⟨1, ![n]⟩)
    (hr : (⟨2, ![n, C]⟩ : Shape).Reduces [1] ⟨1, ![n]⟩) (hu : 0 < (⟨0, ![]⟩ : Shape).numel)
    (b0 : (⟨0, ![]⟩ : Shape).BroadcastsInDim ⟨1, ![n]⟩ ![]) (p : Fin n) :
    maximumf (broadcastInDim ⟨1, ![n]⟩ ![] b0 (constant (F := Ideal) ⟨0, ![]⟩ .f32 0xFF800000#32))
        (Host.reduce FloatOps.maximumf z (constant (F := Ideal) ⟨0, ![]⟩ .f32 0xFF800000#32) hred hu) (ix1 p)
      = rowMax z p := by
  show max (broadcastInDim ⟨1, ![n]⟩ ![] b0 (constant (F := Ideal) ⟨0, ![]⟩ .f32 0xFF800000#32) (ix1 p))
      (Host.reduce FloatOps.maximumf z (constant (F := Ideal) ⟨0, ![]⟩ .f32 0xFF800000#32) hred hu (ix1 p)) = _
  rw [HostMax.reduce_rows z (constant (F := Ideal) ⟨0, ![]⟩ .f32 0xFF800000#32) (fun _ => ofBits_neg_inf) hred hr hu p,
    (broadcastInDim_apply _ b0 _ (ix1 p) ix0 fun ax => ax.elim0).trans ofBits_neg_inf]
  exact max_eq_right bot_le

/-- The host's logarithm of a row softmax on the whole array. -/
theorem host_logSoftmaxRows (hred : (⟨2, ![n, C]⟩ : Shape).ReducesTo [1] ⟨1, ![n]⟩)
    (hr : (⟨2, ![n, C]⟩ : Shape).Reduces [1] ⟨1, ![n]⟩) (hu : 0 < (⟨0, ![]⟩ : Shape).numel)
    (b0 : (⟨0, ![]⟩ : Shape).BroadcastsInDim ⟨1, ![n]⟩ ![])
    (b1 : (⟨1, ![n]⟩ : Shape).BroadcastsInDim ⟨2, ![n, 1]⟩ ![0])
    (b2 : (⟨2, ![n, 1]⟩ : Shape).BroadcastsInDim ⟨2, ![n, C]⟩ ![0, 1])
    (z : FVec Ideal ⟨2, ![n, C]⟩ .f32) :
    subf (subf z (broadcastInDim ⟨2, ![n, C]⟩ ![0, 1] b2 (broadcastInDim ⟨2, ![n, 1]⟩ ![0] b1
        (maximumf (broadcastInDim ⟨1, ![n]⟩ ![] b0 (constant (F := Ideal) ⟨0, ![]⟩ .f32 0xFF800000#32))
          (Host.reduce FloatOps.maximumf z (constant (F := Ideal) ⟨0, ![]⟩ .f32 0xFF800000#32) hred hu)))))
      (broadcastInDim ⟨2, ![n, C]⟩ ![0, 1] b2 (Host.log (broadcastInDim ⟨2, ![n, 1]⟩ ![0] b1
        (Host.reduceAdd (Host.exp (subf z (broadcastInDim ⟨2, ![n, C]⟩ ![0, 1] b2 (broadcastInDim ⟨2, ![n, 1]⟩ ![0] b1
          (maximumf (broadcastInDim ⟨1, ![n]⟩ ![] b0 (constant (F := Ideal) ⟨0, ![]⟩ .f32 0xFF800000#32))
            (Host.reduce FloatOps.maximumf z (constant (F := Ideal) ⟨0, ![]⟩ .f32 0xFF800000#32) hred hu))))))
          (constant (F := Ideal) ⟨0, ![]⟩ .f32 0x00000000#32) hred hu))))
      = logSoftmaxRows z := by
  refine logSoftmax_of_parts z _ _ (fun p q => ?_) (fun p q => ?_)
  · exact (column_bcast_apply _ b1 b2 p q).trans (host_rowMax z hred hr hu b0 p)
  · refine (broadcastInDim_apply _ b2 _ (ix2 p q) (ix2 p (0 : Fin 1)) fun ax => ?_).trans ?_
    · match ax with
      | ⟨0, _⟩ =>
        show p.val = if n = 1 then 0 else p.val
        split
        · have := p.isLt; omega
        · rfl
      | ⟨1, _⟩ => show (0 : ℕ) = if (1 : ℕ) = 1 then 0 else q.val; rw [if_pos rfl]
    · show Ideal.log (broadcastInDim (s := ⟨1, ![n]⟩) ⟨2, ![n, 1]⟩ ![0] b1 _ (ix2 p (0 : Fin 1))) = _
      rw [broadcastInDim_apply _ b1 _ (ix2 p (0 : Fin 1)) (ix1 p) (fun ax => by
        match ax with
        | ⟨0, _⟩ =>
          show p.val = if n = 1 then 0 else p.val
          split
          · have := p.isLt; omega
          · rfl), host_rowSum _ hred hr hu p]
      rfl

end Gcn.SoftmaxOps

end
-- ==== Proof.OutputLayer.lean ====
/-
  The output layer's bias and the logarithm of a row softmax, from blocks of rows to the whole array.

  The fourth region of the program walks an array `A` of 100000 rows and 16 columns in 25 blocks of 4000 consecutive
  rows. At each block it also holds the whole one-row array `b`, and writes back, in the block's place in the output, the
  logarithm of the row softmax of `Y + b` for the block `Y`: every row of the block gets the row `b` added, then from each
  entry the row's largest entry is taken away, and then the logarithm of the row's sum of the exponentials of those
  differences. Entry `(r, q)` of that function of `A + b` reads row `r` of `A` and the row `b` and nothing else, so what a
  block writes back is the block of the whole-array function at the same rows. The 25 blocks are rows `0 … 3999`,
  `4000 … 7999`, …, and row `r` lies in block `r / 4000`; together they are all the rows. So the output array ends as
  the logarithm of the row softmax of `A + b` everywhere.
-/
import proofs.«123936_j77275051590253_1_alg».proof.Proof.Gen.KernelIdeal.Frame
import proofs.«123936_j77275051590253_1_alg».proof.Proof.LibDenseSteps
import proofs.«123936_j77275051590253_1_alg».proof.Proof.LibLogSoftmaxRows
import Idealize.ShloMosaic.Lib.Pipeline.Value
import Idealize.ShloMosaic.Lib.ValueLayout

noncomputable section

namespace Gcn.OutputLayer

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset pair `(0, 0)` is the constant zero offset. -/
theorem zero_offsets : (![0, 0] : Fin 2 → Nat) = fun _ => 0 := funext fun a => by fin_cases a <;> rfl

/-- Where the blocks sit, at each of the 25 points: the input block and the output block have the same row-block number,
    which is at most 24; neither is offset along the columns; and the one-row array is taken whole, at block `(0, 0)`. -/
theorem block_index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 24 :=
  (by decide +kernel : ∀ t : Fin grid3.N, _)

/-- Each of the 25 row blocks of the output is written at some point. -/
theorem block_index_onto : ∀ q : Fin 25, ∃ t : Fin cfg3.N, win3_2.index t = ![q.val, 0] :=
  (by decide +kernel : ∀ q : Fin 25, ∃ t : Fin grid3.N, win3_2.index t = ![q.val, 0])

/-- What the body computes from the one-row array `b` and a block `y` of 4000 rows: `b` is repeated over the 4000 rows
    and added to `y`; of the sum `z` each row's largest entry is found, starting from −∞, and taken away from the row;
    the differences are exponentiated and summed along the row, starting from zero; and the logarithm of that sum is taken
    away too. That is the logarithm of the row softmax of `z`, and entry `(p, q)` of `z` is `y[p, q] + b[0, q]`. -/
theorem payload_eq (b : Vec Ideal S1x16 .f32) (y : Vec Ideal S4000x16 .f32) :
    k3_pay1 (F := Ideal) b y = Gcn.Layers.logSoftmaxRows (Gcn.Steps.addRow (n := 4000) (H := 16) y b) := by
  unfold k3_pay1
  refine (Gcn.SoftmaxOps.kernel_logSoftmaxRows (n := 4000) (C := 16) reduces_S4000x16_S4000 (.inl rfl) rfl rfl
    shapeCasts_S4000_S4000x1 broadcasts_S4000x1_S4000x16 _).trans (congrArg Gcn.Layers.logSoftmaxRows ?_)
  funext j
  obtain ⟨p, q, rfl⟩ : ∃ (p : Fin 4000) (q : Fin 16), j = ix2 p q := ⟨j 0, j 1, eq_ix2 j⟩
  rw [Gcn.Steps.addRow_apply]
  show shapeCast S4000x16 y shapeCasts_S4000x16_S4000x16 (ix2 p q)
      + broadcastTo S4000x16 (shapeCast S1x16 (shapeCast S1x16 b shapeCasts_S1x16_S1x16) shapeCasts_S1x16_S1x16)
          broadcasts_S1x16_S4000x16 (ix2 p q) = _
  rw [shapeCast_self, shapeCast_self, shapeCast_self, broadcastTo_1b_ab_apply]

/-- What point `t` writes back is the block, at the output block's rows, of the logarithm of the row softmax of `A + b`.
    Row `p` of the input block is row `o · 4000 + p` of `A`, where `o` is the block number, the same for input and output;
    the one-row block is `b` itself; and entry `(p, q)` of the result reads row `p` of the block only. -/
theorem flushed_eq (c : Dev nD) (t : Fin cfg3.N) :
    (dat3 (F := Ideal) V c).flushed 2 t
      = ((cfg3.win 2).blk t).view.read (Elt Ideal)
          (Gcn.Layers.logSoftmaxRows (Gcn.Steps.addRow (n := 100000) (H := 16) (V c main_v59) (V c main_v60))) := by
  show (cfg3.win 2).cut (grid3.coords t) ((dat3 V c).after 2 t) = _
  rw [after3_2]
  unfold out3_2
  rw [View.canon_unit_zero zero_offsets]
  simp only [View.ld_unit_zero (S := S4000x16) zero_offsets, View.ld_unit_zero (S := S1x16) zero_offsets]
  rw [payload_eq (iblk3 V c 1 t) (iblk3 V c 0 t)]
  obtain ⟨e0, e1, e2, e3, e4, e5⟩ := block_index_facts t
  funext j
  obtain ⟨p, q, rfl⟩ : ∃ (p : Fin 4000) (q : Fin 16), j = ix2 p q := ⟨j 0, j 1, eq_ix2 j⟩
  have hp : p.val < 4000 := p.isLt
  have hq : q.val < 16 := q.isLt
  -- entry (p, q) of the output block is entry (o · 4000 + p, q) of the output array
  have hemb : ((cfg3.win 2).blk t).view.emb (ix2 p q)
      = ix2 (⟨win3_2.index t (0 : Fin 2) * 4000 + p.val, by omega⟩ : Fin 100000) q := by
    funext a; apply Fin.ext
    match a with
    | ⟨0, _⟩ => show win3_2.index t (0 : Fin 2) * 4000 + 1 * p.val = win3_2.index t (0 : Fin 2) * 4000 + p.val; omega
    | ⟨1, _⟩ => show win3_2.index t (1 : Fin 2) * 16 + 1 * q.val = q.val; omega
  show Gcn.Layers.logSoftmaxRows (Gcn.Steps.addRow (n := 4000) (H := 16) (iblk3 V c 0 t) (iblk3 V c 1 t)) (ix2 p q)
      = Gcn.Layers.logSoftmaxRows (Gcn.Steps.addRow (n := 100000) (H := 16) (V c main_v59) (V c main_v60))
          (((cfg3.win 2).blk t).view.emb (ix2 p q))
  rw [hemb]
  -- the one-row block is the whole one-row array
  have hbias : (iblk3 V c 1 t : S1x16.Idx → EReal) = V c main_v60 := by
    funext k
    show V c main_v60 (((cfg3.win 1).blk t).view.emb k) = V c main_v60 k
    refine congrArg (V c main_v60) ?_
    funext a; apply Fin.ext
    match a with
    | ⟨0, _⟩ => show win3_1.index t (0 : Fin 2) * 1 + 1 * (k 0).val = (k 0).val; omega
    | ⟨1, _⟩ => show win3_1.index t (1 : Fin 2) * 16 + 1 * (k 1).val = (k 1).val; omega
  -- row p of the input block is row o · 4000 + p of the input array
  have hrow : ∀ k : Fin 16, iblk3 V c 0 t (ix2 p k)
      = V c main_v59 (ix2 (⟨win3_2.index t (0 : Fin 2) * 4000 + p.val, by omega⟩ : Fin 100000) k) := by
    intro k
    show V c main_v59 (((cfg3.win 0).blk t).view.emb (ix2 p k)) = _
    refine congrArg (V c main_v59) ?_
    funext a; apply Fin.ext
    match a with
    | ⟨0, _⟩ => show win3_0.index t (0 : Fin 2) * 4000 + 1 * p.val = win3_2.index t (0 : Fin 2) * 4000 + p.val; omega
    | ⟨1, _⟩ => show win3_0.index t (1 : Fin 2) * 16 + 1 * k.val = k.val; omega
  rw [hbias]
  exact Gcn.Layers.logSoftmaxRows_block _ _ p _
    (fun k => Gcn.Steps.addRow_block (V c main_v59) (iblk3 V c 0 t) (V c main_v60) p _ hrow k) q

/-- An entry of the output array lies in point `t`'s block exactly when, on each axis, its coordinate lies in the block's
    range: block number times block length, up to one block length further. -/
theorem mem_block (t : Fin cfg3.N) (i : S100000x16.Idx) :
    i ∈ ((cfg3.win 2).blk t).view.set ↔ ∀ a : Fin 2, win3_2.index t a * S4000x16.size a ≤ (i a).val
      ∧ (i a).val < win3_2.index t a * S4000x16.size a + S4000x16.size a := by
  show i ∈ ((View.whole main_v61).slice (win3_2.rect t)).set ↔ _
  rw [View.set_slice_whole, Rect.mem_set_unit]
  exact Iff.rfl

/-- Every entry of the output array is written back at some point: row `r` lies in row block `r / 4000`, which is one of
    the 25, and a block spans all 16 columns. -/
theorem covered (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, ht⟩ := block_index_onto ⟨(i 0).val / 4000, by omega⟩
  have q0 : win3_2.index t (0 : Fin 2) = (i 0).val / 4000 := congrFun ht 0
  have q1 : win3_2.index t (1 : Fin 2) = 0 := congrFun ht 1
  refine ⟨t, flush3_2 t, ?_⟩
  rw [mem_block]
  intro a
  match a with
  | ⟨0, _⟩ =>
    show win3_2.index t (0 : Fin 2) * 4000 ≤ (i 0).val ∧ (i 0).val < win3_2.index t (0 : Fin 2) * 4000 + 4000
    omega
  | ⟨1, _⟩ =>
    show win3_2.index t (1 : Fin 2) * 16 ≤ (i 1).val ∧ (i 1).val < win3_2.index t (1 : Fin 2) * 16 + 16
    omega

/-- After all 25 points the output array is the logarithm of the row softmax of `A + b`: every block written back is the
    block of that array, and the blocks are all of it. -/
theorem array_eq (c : Dev nD) :
    (dat3 (F := Ideal) V c).arrAt 2 cfg3.N
      = Gcn.Layers.logSoftmaxRows (Gcn.Steps.addRow (n := 100000) (H := 16) (V c main_v59) (V c main_v60)) :=
  (dat3 V c).arrAt_eq_of_cover 2 _ (fun t _ => flushed_eq V c t) covered

end Gcn.OutputLayer

end
-- ==== Proof.KernelValue.lean ====
/-
  The idealized kernel's result as a function of its arguments.

  Following the buffer contents from boundary to boundary: the opening stretches leave the edge lists `s`, `d` and the edge
  weights `w` (functions of the edge array only); the first grid leaves `x · W1`; the next stretch aggregates it; the second grid
  adds the hidden bias and takes the positive part; the third leaves the product with `W2`; the last stretch aggregates again;
  and the last grid adds the output bias and takes the logarithm of the row softmax. A grid changes only its own output array,
  and a stretch only its own results, so `s`, `d`, `w` and the arguments reach every later stage as they were. Each grid's
  output array is the whole-array step of its inputs (the four block-by-block theorems), each stretch the shared aggregation.
-/
import proofs.«123936_j77275051590253_1_alg».proof.Proof.KernelRun
import proofs.«123936_j77275051590253_1_alg».proof.Proof.KernelStages
import proofs.«123936_j77275051590253_1_alg».proof.Proof.FirstProduct
import proofs.«123936_j77275051590253_1_alg».proof.Proof.HiddenLayer
import proofs.«123936_j77275051590253_1_alg».proof.Proof.SecondProduct
import proofs.«123936_j77275051590253_1_alg».proof.Proof.OutputLayer

set_option maxRecDepth 16384

noncomputable section

namespace Cert.KernelIdeal.Value

open Cert.KernelIdeal Cert.KernelIdeal.Gen Cert.KernelIdeal.Stages Idealize.ShloMosaic Idealize.ShloMosaic.TcCoe Idealize.SL.Sem
open Idealize.ShloMosaic.StableHlo Gcn.Host

variable (m : (ℓ : Loc nD τ sig) → Buf (Elt Ideal) ℓ) (ρ : Dev nD → PrngReg) (c : Dev nD)

/-! ## At the first grid's entry -/

theorem entry0_sources : W3 m ρ c (Proc.devRef .tc main_v5) = (withLoops (edgeRow0 (m ((c : Thread nD τ).loc main_arg1)))) := opening_sources (W0 m ρ c)
theorem entry0_targets : W3 m ρ c (Proc.devRef .tc main_v6) = (withLoops (edgeRow1 (m ((c : Thread nD τ).loc main_arg1)))) := opening_targets (W0 m ρ c)
theorem entry0_weights : W3 m ρ c (Proc.devRef .tc main_v29) = (edgeWeight (withLoops (edgeRow0 (m ((c : Thread nD τ).loc main_arg1)))) (withLoops (edgeRow1 (m ((c : Thread nD τ).loc main_arg1))))) := opening_weights (W0 m ρ c)
theorem entry0_arg0 : W3 m ρ c (Proc.devRef .tc main_arg0) = m ((c : Thread nD τ).loc main_arg0) := opening_arg0 (W0 m ρ c)
theorem entry0_arg2 : W3 m ρ c (Proc.devRef .tc main_arg2) = m ((c : Thread nD τ).loc main_arg2) := opening_arg2 (W0 m ρ c)
theorem entry0_arg3 : W3 m ρ c (Proc.devRef .tc main_arg3) = m ((c : Thread nD τ).loc main_arg3) := opening_arg3 (W0 m ρ c)
theorem entry0_arg4 : W3 m ρ c (Proc.devRef .tc main_arg4) = m ((c : Thread nD τ).loc main_arg4) := opening_arg4 (W0 m ρ c)
theorem entry0_arg5 : W3 m ρ c (Proc.devRef .tc main_arg5) = m ((c : Thread nD τ).loc main_arg5) := opening_arg5 (W0 m ρ c)

/-! ## After the first grid: its output array is the product, everything else as before -/

theorem exit0_product : W4 m ρ c (Proc.devRef .tc main_v30) = (Gcn.Steps.product (n := 100000) (K := 512) (H := 32) (m ((c : Thread nD τ).loc main_arg0)) (m ((c : Thread nD τ).loc main_arg2))) := by
  rw [show W4 m ρ c (Proc.devRef .tc main_v30) = (dat0 (V3 m ρ) c).arrAt 2 cfg0.N from W4_arr m ρ c 2,
    Gcn.FirstProduct.array_eq (V3 m ρ) c]
  show Gcn.Steps.product (W3 m ρ c (Proc.devRef .tc main_arg0)) (W3 m ρ c (Proc.devRef .tc main_arg2)) = _
  rw [entry0_arg0, entry0_arg2]

theorem exit0_sources : W4 m ρ c (Proc.devRef .tc main_v5) = (withLoops (edgeRow0 (m ((c : Thread nD τ).loc main_arg1)))) := (W4_of_ne m ρ c main_v5 (by decide)).trans (entry0_sources m ρ c)
theorem exit0_targets : W4 m ρ c (Proc.devRef .tc main_v6) = (withLoops (edgeRow1 (m ((c : Thread nD τ).loc main_arg1)))) := (W4_of_ne m ρ c main_v6 (by decide)).trans (entry0_targets m ρ c)
theorem exit0_weights : W4 m ρ c (Proc.devRef .tc main_v29) = (edgeWeight (withLoops (edgeRow0 (m ((c : Thread nD τ).loc main_arg1)))) (withLoops (edgeRow1 (m ((c : Thread nD τ).loc main_arg1))))) := (W4_of_ne m ρ c main_v29 (by decide)).trans (entry0_weights m ρ c)
theorem exit0_arg3 : W4 m ρ c (Proc.devRef .tc main_arg3) = m ((c : Thread nD τ).loc main_arg3) := (W4_of_ne m ρ c main_arg3 (by decide)).trans (entry0_arg3 m ρ c)
theorem exit0_arg4 : W4 m ρ c (Proc.devRef .tc main_arg4) = m ((c : Thread nD τ).loc main_arg4) := (W4_of_ne m ρ c main_arg4 (by decide)).trans (entry0_arg4 m ρ c)
theorem exit0_arg5 : W4 m ρ c (Proc.devRef .tc main_arg5) = m ((c : Thread nD τ).loc main_arg5) := (W4_of_ne m ρ c main_arg5 (by decide)).trans (entry0_arg5 m ρ c)

/-! ## At the second grid's entry: the first aggregation and the hidden bias row -/

theorem entry1_aggregate : W5 m ρ c (Proc.devRef .tc main_v43) = (aggregate32 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 512) (H := 32) (m ((c : Thread nD τ).loc main_arg0)) (m ((c : Thread nD τ).loc main_arg2)))) := by
  rw [show W5 m ρ c (Proc.devRef .tc main_v43) = _ from agg1_value (W4 m ρ c), exit0_sources, exit0_targets, exit0_weights, exit0_product]
theorem entry1_bias : W5 m ρ c (Proc.devRef .tc main_v44) = (shapeCast S1x32 (m ((c : Thread nD τ).loc main_arg3)) Facts₀.shapeCasts_S32_S1x32) := by
  rw [show W5 m ρ c (Proc.devRef .tc main_v44) = _ from agg1_bias (W4 m ρ c), exit0_arg3]
theorem entry1_sources : W5 m ρ c (Proc.devRef .tc main_v5) = (withLoops (edgeRow0 (m ((c : Thread nD τ).loc main_arg1)))) := (agg1_keeps_v5 (W4 m ρ c)).trans (exit0_sources m ρ c)
theorem entry1_targets : W5 m ρ c (Proc.devRef .tc main_v6) = (withLoops (edgeRow1 (m ((c : Thread nD τ).loc main_arg1)))) := (agg1_keeps_v6 (W4 m ρ c)).trans (exit0_targets m ρ c)
theorem entry1_weights : W5 m ρ c (Proc.devRef .tc main_v29) = (edgeWeight (withLoops (edgeRow0 (m ((c : Thread nD τ).loc main_arg1)))) (withLoops (edgeRow1 (m ((c : Thread nD τ).loc main_arg1))))) := (agg1_keeps_v29 (W4 m ρ c)).trans (exit0_weights m ρ c)
theorem entry1_arg4 : W5 m ρ c (Proc.devRef .tc main_arg4) = m ((c : Thread nD τ).loc main_arg4) := (agg1_keeps_arg4 (W4 m ρ c)).trans (exit0_arg4 m ρ c)
theorem entry1_arg5 : W5 m ρ c (Proc.devRef .tc main_arg5) = m ((c : Thread nD τ).loc main_arg5) := (agg1_keeps_arg5 (W4 m ρ c)).trans (exit0_arg5 m ρ c)

/-! ## After the second grid: the hidden layer -/

theorem exit1_hidden : W6 m ρ c (Proc.devRef .tc main_v45) = (Gcn.Steps.relu (Gcn.Steps.addRow (n := 100000) (H := 32) (aggregate32 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 512) (H := 32) (m ((c : Thread nD τ).loc main_arg0)) (m ((c : Thread nD τ).loc main_arg2)))) (shapeCast S1x32 (m ((c : Thread nD τ).loc main_arg3)) Facts₀.shapeCasts_S32_S1x32))) := by
  rw [show W6 m ρ c (Proc.devRef .tc main_v45) = (dat1 (V5 m ρ) c).arrAt 2 cfg1.N from W6_arr m ρ c 2,
    Gcn.HiddenLayer.array_eq (V5 m ρ) c]
  show Gcn.Steps.relu (Gcn.Steps.addRow (W5 m ρ c (Proc.devRef .tc main_v43)) (W5 m ρ c (Proc.devRef .tc main_v44))) = _
  rw [entry1_aggregate, entry1_bias]

theorem exit1_sources : W6 m ρ c (Proc.devRef .tc main_v5) = (withLoops (edgeRow0 (m ((c : Thread nD τ).loc main_arg1)))) := (W6_of_ne m ρ c main_v5 (by decide)).trans (entry1_sources m ρ c)
theorem exit1_targets : W6 m ρ c (Proc.devRef .tc main_v6) = (withLoops (edgeRow1 (m ((c : Thread nD τ).loc main_arg1)))) := (W6_of_ne m ρ c main_v6 (by decide)).trans (entry1_targets m ρ c)
theorem exit1_weights : W6 m ρ c (Proc.devRef .tc main_v29) = (edgeWeight (withLoops (edgeRow0 (m ((c : Thread nD τ).loc main_arg1)))) (withLoops (edgeRow1 (m ((c : Thread nD τ).loc main_arg1))))) := (W6_of_ne m ρ c main_v29 (by decide)).trans (entry1_weights m ρ c)
theorem exit1_arg4 : W6 m ρ c (Proc.devRef .tc main_arg4) = m ((c : Thread nD τ).loc main_arg4) := (W6_of_ne m ρ c main_arg4 (by decide)).trans (entry1_arg4 m ρ c)
theorem exit1_arg5 : W6 m ρ c (Proc.devRef .tc main_arg5) = m ((c : Thread nD τ).loc main_arg5) := (W6_of_ne m ρ c main_arg5 (by decide)).trans (entry1_arg5 m ρ c)

/-! ## After the third grid: the second product -/

theorem exit2_product : W7 m ρ c (Proc.devRef .tc main_v46) = (Gcn.Steps.product (n := 100000) (K := 32) (H := 16) (Gcn.Steps.relu (Gcn.Steps.addRow (n := 100000) (H := 32) (aggregate32 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 512) (H := 32) (m ((c : Thread nD τ).loc main_arg0)) (m ((c : Thread nD τ).loc main_arg2)))) (shapeCast S1x32 (m ((c : Thread nD τ).loc main_arg3)) Facts₀.shapeCasts_S32_S1x32))) (m ((c : Thread nD τ).loc main_arg4))) := by
  rw [show W7 m ρ c (Proc.devRef .tc main_v46) = (dat2 (V6 m ρ) c).arrAt 2 cfg2.N from W7_arr m ρ c 2,
    Gcn.SecondProduct.array_eq (V6 m ρ) c]
  show Gcn.Steps.product (W6 m ρ c (Proc.devRef .tc main_v45)) (W6 m ρ c (Proc.devRef .tc main_arg4)) = _
  rw [exit1_hidden, exit1_arg4]

theorem exit2_sources : W7 m ρ c (Proc.devRef .tc main_v5) = (withLoops (edgeRow0 (m ((c : Thread nD τ).loc main_arg1)))) := (W7_of_ne m ρ c main_v5 (by decide)).trans (exit1_sources m ρ c)
theorem exit2_targets : W7 m ρ c (Proc.devRef .tc main_v6) = (withLoops (edgeRow1 (m ((c : Thread nD τ).loc main_arg1)))) := (W7_of_ne m ρ c main_v6 (by decide)).trans (exit1_targets m ρ c)
theorem exit2_weights : W7 m ρ c (Proc.devRef .tc main_v29) = (edgeWeight (withLoops (edgeRow0 (m ((c : Thread nD τ).loc main_arg1)))) (withLoops (edgeRow1 (m ((c : Thread nD τ).loc main_arg1))))) := (W7_of_ne m ρ c main_v29 (by decide)).trans (exit1_weights m ρ c)
theorem exit2_arg5 : W7 m ρ c (Proc.devRef .tc main_arg5) = m ((c : Thread nD τ).loc main_arg5) := (W7_of_ne m ρ c main_arg5 (by decide)).trans (exit1_arg5 m ρ c)

/-! ## At the last grid's entry: the second aggregation and the output bias row -/

theorem entry3_aggregate : W8 m ρ c (Proc.devRef .tc main_v59) = (aggregate16 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 32) (H := 16) (Gcn.Steps.relu (Gcn.Steps.addRow (n := 100000) (H := 32) (aggregate32 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 512) (H := 32) (m ((c : Thread nD τ).loc main_arg0)) (m ((c : Thread nD τ).loc main_arg2)))) (shapeCast S1x32 (m ((c : Thread nD τ).loc main_arg3)) Facts₀.shapeCasts_S32_S1x32))) (m ((c : Thread nD τ).loc main_arg4)))) := by
  rw [show W8 m ρ c (Proc.devRef .tc main_v59) = _ from agg2_value (W7 m ρ c), exit2_sources, exit2_targets, exit2_weights, exit2_product]
theorem entry3_bias : W8 m ρ c (Proc.devRef .tc main_v60) = (shapeCast S1x16 (m ((c : Thread nD τ).loc main_arg5)) Facts₀.shapeCasts_S16_S1x16) := by
  rw [show W8 m ρ c (Proc.devRef .tc main_v60) = _ from agg2_bias (W7 m ρ c), exit2_arg5]

/-! ## The result -/

/-- The result buffer after the run, as the network's formula in the launch arguments. -/
theorem result : W9 m ρ c (Proc.devRef .tc main_v61) = Gcn.Layers.logSoftmaxRows (Gcn.Steps.addRow (n := 100000) (H := 16) (aggregate16 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 32) (H := 16) (Gcn.Steps.relu (Gcn.Steps.addRow (n := 100000) (H := 32) (aggregate32 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 512) (H := 32) (m ((c : Thread nD τ).loc main_arg0)) (m ((c : Thread nD τ).loc main_arg2)))) (shapeCast S1x32 (m ((c : Thread nD τ).loc main_arg3)) Facts₀.shapeCasts_S32_S1x32))) (m ((c : Thread nD τ).loc main_arg4)))) (shapeCast S1x16 (m ((c : Thread nD τ).loc main_arg5)) Facts₀.shapeCasts_S16_S1x16)) := by
  rw [Cert.KernelIdeal.Run.result_eq m ρ c, Gcn.OutputLayer.array_eq (V8 m ρ) c]
  show Gcn.Layers.logSoftmaxRows (Gcn.Steps.addRow (W8 m ρ c (Proc.devRef .tc main_v59)) (W8 m ρ c (Proc.devRef .tc main_v60))) = _
  rw [entry3_aggregate, entry3_bias]

end Cert.KernelIdeal.Value

end
-- ==== Proof.RefRun.lean ====
/-
  The idealized reference's run, stage by stage.

  The reference is a straight line of 134 host operations (a called function's operations standing in its call's place). Every
  weakly fair execution of such a line terminates, and each buffer ends at the fold of the operations' results over the launch
  contents. The line is cut here into the seven stages of the network — edge weights and first product, first aggregation,
  hidden layer, second product, edge weights again, second aggregation, output layer — and the fold over a concatenation is the
  folds composed, so each stage can be read by itself from whatever contents it starts at.
-/
import proofs.«123936_j77275051590253_1_alg».proof.Proof.Gen.ReferenceIdeal
import proofs.«123936_j77275051590253_1_alg».proof.Proof.LibOutlined
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Stage: the edge lists with self-loops, the degree normalisation and every edge's weight — and, among them, the first matrix product (41 operations). -/
abbrev opsWeights : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg2 main_v4 ((fun l r => Host.dotGeneral dot_S100000x512_S512x32_S100000x32_1_0_0_1_n_n none l r) : (⟨S100000x512, .f32⟩ : BufTy).Contents (Elt F) → (⟨S512x32, .f32⟩ : BufTy).Contents (Elt F) → (⟨S100000x32, .f32⟩ : BufTy).Contents (Elt F)),
    StableHlo.nullary main_v5 (iotaInDim S100000 32 0),
    StableHlo.binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (StableHlo.TRef.of (T := ⟨S_, .f32⟩) main_cst_2) main_call0.v0 id,
    StableHlo.TRef.unary main_call0.v0 main_call0.v1 (broadcastInDim S100000 ![] bcast_S_S100000),
    StableHlo.TRef.ternary (StableHlo.TRef.of (T := ⟨S100000, .i1⟩) main_v13) (StableHlo.TRef.of (T := ⟨S100000, .f32⟩) main_v14) main_call0.v1 main_call0.v2 select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v6 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v18 (broadcastInDim S1700000 ![] bcast_S_S1700000 : (⟨S_, .i32⟩ : BufTy).Contents (Elt F) → (⟨S1700000, .i32⟩ : BufTy).Contents (Elt F)),
    StableHlo.binary main_v6 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v7 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v7 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)) ]

theorem opsWeights_sub : (opsWeights : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem opsWeights_fresh : ∀ op ∈ (opsWeights : List (HloOp τ sig (Elt F))), op.fresh = ∅ := by
  intro _ h; (repeat (cases h with | head => rfl | tail _ h => ?_)); exact nomatch h

/-- Stage: the first aggregation: gather the sources' rows of the product, scale by the edge weights, add into the targets' rows (16 operations). -/
abbrev opsAggregate1 : List (HloOp τ sig (Elt F)) :=
  [ StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v6 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v6 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v4 main_v36 main_v37 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v30 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v37 main_v39 main_v40 (mulf : (⟨S1700000x32, .f32⟩ : BufTy).Contents (Elt F) → (⟨S1700000x32, .f32⟩ : BufTy).Contents (Elt F) → (⟨S1700000x32, .f32⟩ : BufTy).Contents (Elt F)),
    StableHlo.nullary main_cst_8 (constant S_ .f32 0x00000000#32),
    StableHlo.unary main_cst_8 main_v41 (broadcastInDim S100000x32 ![] bcast_S_S100000x32 : (⟨S_, .f32⟩ : BufTy).Contents (Elt F) → (⟨S100000x32, .f32⟩ : BufTy).Contents (Elt F)),
    StableHlo.unary main_v7 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)) ]

theorem opsAggregate1_sub : (opsAggregate1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem opsAggregate1_fresh : ∀ op ∈ (opsAggregate1 : List (HloOp τ sig (Elt F))), op.fresh = ∅ := by
  intro _ h; (repeat (cases h with | head => rfl | tail _ h => ?_)); exact nomatch h

/-- Stage: the hidden layer's bias row and positive part (6 operations). -/
abbrev opsHidden : List (HloOp τ sig (Elt F)) :=
  [ StableHlo.unary main_arg3 main_v44 (broadcastInDim S1x32 ![1] bcast_S32_S1x32_1 : (⟨S32, .f32⟩ : BufTy).Contents (Elt F) → (⟨S1x32, .f32⟩ : BufTy).Contents (Elt F)),
    StableHlo.unary main_v44 main_v45 (broadcastInDim S100000x32 ![0, 1] bcast_S1x32_S100000x32_0_1 : (⟨S1x32, .f32⟩ : BufTy).Contents (Elt F) → (⟨S100000x32, .f32⟩ : BufTy).Contents (Elt F)),
    StableHlo.binary main_v43 main_v45 main_v46 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (StableHlo.TRef.of (T := ⟨S100000x32, .f32⟩) main_v46) main_call1.v0 main_call1.v1 maximumf ]

theorem opsHidden_sub : (opsHidden : List (HloOp τ sig (Elt F))).Forall fun op => op.bufs ⊆ tcRefs τ sig :=
  ⟨unary_bufs_sub .., unary_bufs_sub .., binary_bufs_sub .., nullary_bufs_sub .., unary_bufs_sub .., binary_bufs_sub ..⟩

theorem opsHidden_fresh : ∀ op ∈ (opsHidden : List (HloOp τ sig (Elt F))), op.fresh = ∅ := by
  intro _ h; (repeat (cases h with | head => rfl | tail _ h => ?_)); exact nomatch h

/-- Stage: the second matrix product (1 operation). -/
abbrev opsProduct2 : List (HloOp τ sig (Elt F)) :=
  [ StableHlo.binary main_v47 main_arg4 main_v48 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)) ]

theorem opsProduct2_sub : (opsProduct2 : List (HloOp τ sig (Elt F))).Forall fun op => op.bufs ⊆ tcRefs τ sig :=
  binary_bufs_sub ..

theorem opsProduct2_fresh : ∀ op ∈ (opsProduct2 : List (HloOp τ sig (Elt F))), op.fresh = ∅ := by
  intro _ h; (repeat (cases h with | head => rfl | tail _ h => ?_)); exact nomatch h

/-- Stage: the edge lists, the normalisation and the edge weights, computed a second time from the same edge array (36 operations). -/
abbrev opsWeights2 : List (HloOp τ sig (Elt F)) :=
  [ StableHlo.nullary main_v49 (iotaInDim S100000 32 0),
    StableHlo.binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_9 (constant S_ .f32 0x3F800000#32),
    StableHlo.unary main_cst_9 main_v52 (broadcastInDim S1700000 ![] bcast_S_S1700000 : (⟨S_, .f32⟩ : BufTy).Contents (Elt F) → (⟨S1700000, .f32⟩ : BufTy).Contents (Elt F)),
    StableHlo.nullary main_cst_10 (constant S_ .f32 0x00000000#32),
    StableHlo.unary main_cst_10 main_v53 (broadcastInDim S100000 ![] bcast_S_S100000 : (⟨S_, .f32⟩ : BufTy).Contents (Elt F) → (⟨S100000, .f32⟩ : BufTy).Contents (Elt F)),
    StableHlo.unary main_v51 main_v54 (broadcastInDim S1700000x1 ![0] bcast_S1700000_S1700000x1_0 : (⟨S1700000, .i32⟩ : BufTy).Contents (Elt F) → (⟨S1700000x1, .i32⟩ : BufTy).Contents (Elt F)),
    StableHlo.ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_11 (constant S_ .f32 0x00000000#32),
    StableHlo.unary main_cst_11 main_v56 (broadcastInDim S100000 ![] bcast_S_S100000 : (⟨S_, .f32⟩ : BufTy).Contents (Elt F) → (⟨S100000, .f32⟩ : BufTy).Contents (Elt F)),
    StableHlo.binary main_v55 main_v56 main_v57 (cmpf .ogt : (⟨S100000, .f32⟩ : BufTy).Contents (Elt F) → (⟨S100000, .f32⟩ : BufTy).Contents (Elt F) → (⟨S100000, .i1⟩ : BufTy).Contents (Elt F)),
    StableHlo.unary main_v55 main_v58 (Host.rsqrt : (⟨S100000, .f32⟩ : BufTy).Contents (Elt F) → (⟨S100000, .f32⟩ : BufTy).Contents (Elt F)),
    StableHlo.nullary main_cst_12 (constant S_ .f32 0x00000000#32),
    StableHlo.TRef.unary (StableHlo.TRef.of (T := ⟨S_, .f32⟩) main_cst_12) main_call2.v0 id,
    StableHlo.TRef.unary main_call2.v0 main_call2.v1 (broadcastInDim S100000 ![] bcast_S_S100000),
    StableHlo.TRef.ternary (StableHlo.TRef.of (T := ⟨S100000, .i1⟩) main_v57) (StableHlo.TRef.of (T := ⟨S100000, .f32⟩) main_v58) main_call2.v1 main_call2.v2 select,
    StableHlo.nullary main_c_13 (constantI S_ 32 0#32),
    StableHlo.unary main_c_13 main_v60 (broadcastInDim S1700000 ![] bcast_S_S1700000 : (⟨S_, .i32⟩ : BufTy).Contents (Elt F) → (⟨S1700000, .i32⟩ : BufTy).Contents (Elt F)),
    StableHlo.binary main_v50 main_v60 main_v61 (cmpi .slt : (⟨S1700000, .i32⟩ : BufTy).Contents (Elt F) → (⟨S1700000, .i32⟩ : BufTy).Contents (Elt F) → (⟨S1700000, .i1⟩ : BufTy).Contents (Elt F)),
    StableHlo.nullary main_c_14 (constantI S_ 32 100000#32),
    StableHlo.unary main_c_14 main_v62 (broadcastInDim S1700000 ![] bcast_S_S1700000 : (⟨S_, .i32⟩ : BufTy).Contents (Elt F) → (⟨S1700000, .i32⟩ : BufTy).Contents (Elt F)),
    StableHlo.binary main_v50 main_v62 main_v63 (addi : (⟨S1700000, .i32⟩ : BufTy).Contents (Elt F) → (⟨S1700000, .i32⟩ : BufTy).Contents (Elt F) → (⟨S1700000, .i32⟩ : BufTy).Contents (Elt F)),
    StableHlo.ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v64 main_v65 (broadcastInDim S1700000x1 ![0] bcast_S1700000_S1700000x1_0 : (⟨S1700000, .i32⟩ : BufTy).Contents (Elt F) → (⟨S1700000x1, .i32⟩ : BufTy).Contents (Elt F)),
    StableHlo.binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_15 (constantI S_ 32 0#32),
    StableHlo.unary main_c_15 main_v67 (broadcastInDim S1700000 ![] bcast_S_S1700000 : (⟨S_, .i32⟩ : BufTy).Contents (Elt F) → (⟨S1700000, .i32⟩ : BufTy).Contents (Elt F)),
    StableHlo.binary main_v51 main_v67 main_v68 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v69 (broadcastInDim S1700000 ![] bcast_S_S1700000 : (⟨S_, .i32⟩ : BufTy).Contents (Elt F) → (⟨S1700000, .i32⟩ : BufTy).Contents (Elt F)),
    StableHlo.binary main_v51 main_v69 main_v70 (addi : (⟨S1700000, .i32⟩ : BufTy).Contents (Elt F) → (⟨S1700000, .i32⟩ : BufTy).Contents (Elt F) → (⟨S1700000, .i32⟩ : BufTy).Contents (Elt F)),
    StableHlo.ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v71 main_v72 (broadcastInDim S1700000x1 ![0] bcast_S1700000_S1700000x1_0 : (⟨S1700000, .i32⟩ : BufTy).Contents (Elt F) → (⟨S1700000x1, .i32⟩ : BufTy).Contents (Elt F)),
    StableHlo.binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v66 main_v73 main_v74 (mulf : (⟨S1700000, .f32⟩ : BufTy).Contents (Elt F) → (⟨S1700000, .f32⟩ : BufTy).Contents (Elt F) → (⟨S1700000, .f32⟩ : BufTy).Contents (Elt F)) ]

theorem opsWeights2_sub : (opsWeights2 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem opsWeights2_fresh : ∀ op ∈ (opsWeights2 : List (HloOp τ sig (Elt F))), op.fresh = ∅ := by
  intro _ h; (repeat (cases h with | head => rfl | tail _ h => ?_)); exact nomatch h

/-- Stage: the second aggregation (16 operations). -/
abbrev opsAggregate2 : List (HloOp τ sig (Elt F)) :=
  [ StableHlo.nullary main_c_17 (constantI S_ 32 0#32),
    StableHlo.unary main_c_17 main_v75 (broadcastInDim S1700000 ![] bcast_S_S1700000 : (⟨S_, .i32⟩ : BufTy).Contents (Elt F) → (⟨S1700000, .i32⟩ : BufTy).Contents (Elt F)),
    StableHlo.binary main_v50 main_v75 main_v76 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v77 (broadcastInDim S1700000 ![] bcast_S_S1700000 : (⟨S_, .i32⟩ : BufTy).Contents (Elt F) → (⟨S1700000, .i32⟩ : BufTy).Contents (Elt F)),
    StableHlo.binary main_v50 main_v77 main_v78 (addi : (⟨S1700000, .i32⟩ : BufTy).Contents (Elt F) → (⟨S1700000, .i32⟩ : BufTy).Contents (Elt F) → (⟨S1700000, .i32⟩ : BufTy).Contents (Elt F)),
    StableHlo.ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v79 main_v80 (broadcastInDim S1700000x1 ![0] bcast_S1700000_S1700000x1_0 : (⟨S1700000, .i32⟩ : BufTy).Contents (Elt F) → (⟨S1700000x1, .i32⟩ : BufTy).Contents (Elt F)),
    StableHlo.binary main_v48 main_v80 main_v81 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    StableHlo.unary main_v74 main_v82 (broadcastInDim S1700000x1 ![0] bcast_S1700000_S1700000x1_0 : (⟨S1700000, .f32⟩ : BufTy).Contents (Elt F) → (⟨S1700000x1, .f32⟩ : BufTy).Contents (Elt F)),
    StableHlo.unary main_v82 main_v83 (broadcastInDim S1700000x16 ![0, 1] bcast_S1700000x1_S1700000x16_0_1 : (⟨S1700000x1, .f32⟩ : BufTy).Contents (Elt F) → (⟨S1700000x16, .f32⟩ : BufTy).Contents (Elt F)),
    StableHlo.binary main_v81 main_v83 main_v84 (mulf : (⟨S1700000x16, .f32⟩ : BufTy).Contents (Elt F) → (⟨S1700000x16, .f32⟩ : BufTy).Contents (Elt F) → (⟨S1700000x16, .f32⟩ : BufTy).Contents (Elt F)),
    StableHlo.nullary main_cst_19 (constant S_ .f32 0x00000000#32),
    StableHlo.unary main_cst_19 main_v85 (broadcastInDim S100000x16 ![] bcast_S_S100000x16 : (⟨S_, .f32⟩ : BufTy).Contents (Elt F) → (⟨S100000x16, .f32⟩ : BufTy).Contents (Elt F)),
    StableHlo.unary main_v51 main_v86 (broadcastInDim S1700000x1 ![0] bcast_S1700000_S1700000x1_0 : (⟨S1700000, .i32⟩ : BufTy).Contents (Elt F) → (⟨S1700000x1, .i32⟩ : BufTy).Contents (Elt F)),
    StableHlo.ternary main_v85 main_v86 main_v84 main_v87 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)) ]

theorem opsAggregate2_sub : (opsAggregate2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem opsAggregate2_fresh : ∀ op ∈ (opsAggregate2 : List (HloOp τ sig (Elt F))), op.fresh = ∅ := by
  intro _ h; (repeat (cases h with | head => rfl | tail _ h => ?_)); exact nomatch h

/-- Stage: the output layer's bias row and the logarithm of the row softmax (18 operations). -/
abbrev opsOutput : List (HloOp τ sig (Elt F)) :=
  [ StableHlo.unary main_arg5 main_v88 (broadcastInDim S1x16 ![1] bcast_S16_S1x16_1 : (⟨S16, .f32⟩ : BufTy).Contents (Elt F) → (⟨S1x16, .f32⟩ : BufTy).Contents (Elt F)),
    StableHlo.unary main_v88 main_v89 (broadcastInDim S100000x16 ![0, 1] bcast_S1x16_S100000x16_0_1 : (⟨S1x16, .f32⟩ : BufTy).Contents (Elt F) → (⟨S100000x16, .f32⟩ : BufTy).Contents (Elt F)),
    StableHlo.binary main_v87 main_v89 main_v90 (addf : (⟨S100000x16, .f32⟩ : BufTy).Contents (Elt F) → (⟨S100000x16, .f32⟩ : BufTy).Contents (Elt F) → (⟨S100000x16, .f32⟩ : BufTy).Contents (Elt F)),
    StableHlo.TRef.nullary main_call3.cst (constant S_ .f32 0xFF800000#32),
    StableHlo.TRef.binary (StableHlo.TRef.of (T := ⟨S100000x16, .f32⟩) main_v90) main_call3.cst main_call3.v0 (fun x v => Host.reduce FloatOps.maximumf x v reducesTo_S100000x16_S100000_d1 h_S_),
    StableHlo.TRef.nullary main_call3.cst_0 (constant S_ .f32 0xFF800000#32),
    StableHlo.TRef.unary main_call3.cst_0 main_call3.v1 (broadcastInDim S100000 ![] bcast_S_S100000),
    StableHlo.TRef.binary main_call3.v1 main_call3.v0 main_call3.v2 maximumf,
    StableHlo.TRef.unary main_call3.v2 main_call3.v3 (broadcastInDim S100000x1 ![0] bcast_S100000_S100000x1_0),
    StableHlo.TRef.unary main_call3.v3 main_call3.v4 (broadcastInDim S100000x16 ![0, 1] bcast_S100000x1_S100000x16_0_1),
    StableHlo.TRef.binary (StableHlo.TRef.of (T := ⟨S100000x16, .f32⟩) main_v90) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S100000x16_S100000_d1 h_S_),
    StableHlo.TRef.unary main_call3.v7 main_call3.v8 (broadcastInDim S100000x1 ![0] bcast_S100000_S100000x1_0),
    StableHlo.TRef.unary main_call3.v8 main_call3.v9 Host.log,
    StableHlo.TRef.unary main_call3.v9 main_call3.v10 (broadcastInDim S100000x16 ![0, 1] bcast_S100000x1_S100000x16_0_1),
    StableHlo.TRef.binary main_call3.v5 main_call3.v10 main_call3.v11 subf ]

theorem opsOutput_sub : (opsOutput : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsOutput_fresh : ∀ op ∈ (opsOutput : List (HloOp τ sig (Elt F))), op.fresh = ∅ := by
  intro _ h; (repeat (cases h with | head => rfl | tail _ h => ?_)); exact nomatch h

/-- The whole line: the stages in order. -/
abbrev ops : List (HloOp τ sig (Elt F)) := opsWeights ++ (opsAggregate1 ++ (opsHidden ++ (opsProduct2 ++ (opsWeights2 ++ (opsAggregate2 ++ (opsOutput))))))

set_option maxRecDepth 8192 in
set_option maxHeartbeats 4000000 in
/-- The program is the line run in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨opsWeights_sub, opsAggregate1_sub, opsHidden_sub, opsProduct2_sub, opsWeights2_sub, opsAggregate2_sub, opsOutput_sub⟩

theorem ops_fresh : ∀ op ∈ (ops : List (HloOp τ sig (Elt F))), op.fresh = ∅ := by
  intro op h
  simp only [ops, List.mem_append] at h
  rcases h with h | h | h | h | h | h | h
  exacts [opsWeights_fresh op h, opsAggregate1_fresh op h, opsHidden_fresh op h, opsProduct2_fresh op h, opsWeights2_fresh op h, opsAggregate2_fresh op h, opsOutput_fresh op h]

/-- The contents after the whole line, from contents `V`: the stages' contents composed. -/
def contents (V : Valuation τ sig (Elt F)) : Valuation τ sig (Elt F) :=
  after opsOutput (after opsAggregate2 (after opsWeights2 (after opsProduct2 (after opsHidden (after opsAggregate1 (after opsWeights (V)))))))

theorem after_ops (V : Valuation τ sig (Elt F)) : after ops V = contents V := by
  simp only [ops, contents, Cert.Lib.Outlined.after_append]

/-- Every weakly fair execution of the reference terminates, nothing faulting, and every buffer ends at the stages' contents
    composed over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = contents (launchContents m c) (Proc.devRef .tc b) :=
  (θ_run defs _ _).mono (fun _ h c b => (h c b).trans (congrFun (after_ops _) _))
    (run_seq scopedRefs_eq scopedSems_eq defs main (fun _ => ops) main_eq (fun _ => ops_sub) m ρ (fun _ => ops_fresh))

end Cert.ReferenceIdeal.Stages

end
-- ==== Proof.RefArgs.lean ====
/-
  The idealized reference writes none of its arguments.

  No operation of the seven stages has an argument array as its result, so whatever contents the line starts from, each
  argument's buffer holds at the end what it held at the start.
-/
import proofs.«123936_j77275051590253_1_alg».proof.Proof.RefRun

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]
variable (V : Valuation τ sig (Elt F))

set_option maxHeartbeats 100000000 in
/-- Argument 0 ends as it started. -/
theorem contents_arg0 : contents V (Proc.devRef .tc main_arg0) = V (Proc.devRef .tc main_arg0) := by
  unfold contents
  dsimp only [opsWeights, opsAggregate1, opsHidden, opsProduct2, opsWeights2, opsAggregate2, opsOutput]
  after_results_simp

set_option maxHeartbeats 100000000 in
/-- Argument 1 ends as it started. -/
theorem contents_arg1 : contents V (Proc.devRef .tc main_arg1) = V (Proc.devRef .tc main_arg1) := by
  unfold contents
  dsimp only [opsWeights, opsAggregate1, opsHidden, opsProduct2, opsWeights2, opsAggregate2, opsOutput]
  after_results_simp

set_option maxHeartbeats 100000000 in
/-- Argument 2 ends as it started. -/
theorem contents_arg2 : contents V (Proc.devRef .tc main_arg2) = V (Proc.devRef .tc main_arg2) := by
  unfold contents
  dsimp only [opsWeights, opsAggregate1, opsHidden, opsProduct2, opsWeights2, opsAggregate2, opsOutput]
  after_results_simp

set_option maxHeartbeats 100000000 in
/-- Argument 3 ends as it started. -/
theorem contents_arg3 : contents V (Proc.devRef .tc main_arg3) = V (Proc.devRef .tc main_arg3) := by
  unfold contents
  dsimp only [opsWeights, opsAggregate1, opsHidden, opsProduct2, opsWeights2, opsAggregate2, opsOutput]
  after_results_simp

set_option maxHeartbeats 100000000 in
/-- Argument 4 ends as it started. -/
theorem contents_arg4 : contents V (Proc.devRef .tc main_arg4) = V (Proc.devRef .tc main_arg4) := by
  unfold contents
  dsimp only [opsWeights, opsAggregate1, opsHidden, opsProduct2, opsWeights2, opsAggregate2, opsOutput]
  after_results_simp

set_option maxHeartbeats 100000000 in
/-- Argument 5 ends as it started. -/
theorem contents_arg5 : contents V (Proc.devRef .tc main_arg5) = V (Proc.devRef .tc main_arg5) := by
  unfold contents
  dsimp only [opsWeights, opsAggregate1, opsHidden, opsProduct2, opsWeights2, opsAggregate2, opsOutput]
  after_results_simp

end Cert.ReferenceIdeal.Stages

end
-- ==== Proof.RefStages.lean ====
/-
  The idealized reference's seven stages, read as functions of what they find.

  Each stage of the reference's line of host operations is read from ARBITRARY starting contents `W`. The first leaves the two edge
  lists with their self-loops, every edge's weight and the first matrix product; the second is the 32-column aggregation of the
  buffers it reads; the third adds the hidden bias row and takes the maximum with zero; the fourth is the second product; the fifth
  computes the edge lists and weights once more, from the two rows of the edge array the first stage left; the sixth is the 16-column
  aggregation; the last adds the output bias row and takes the logarithm of the row softmax, as the outlined function spells it.
  A stage writes only its own results, so every buffer a later stage reads passes through unchanged. The edge lists, the weights
  and the aggregations are the SAME functions the kernel's host stretches are (named once, never opened): the two programs' records
  of dimension numbers are equal field by field, and their side conditions are propositions.
-/
import proofs.«123936_j77275051590253_1_alg».proof.Proof.RefRun
import proofs.«123936_j77275051590253_1_alg».proof.Proof.HostChain

set_option maxRecDepth 16384

noncomputable section

namespace Cert.ReferenceIdeal.StageValues

open Cert.ReferenceIdeal Cert.ReferenceIdeal.Gen Cert.ReferenceIdeal.Stages Idealize.ShloMosaic Idealize.ShloMosaic.TcCoe Idealize.SL.Sem
open Idealize.ShloMosaic.StableHlo Gcn.Host

variable {F : FTy → Type} [FloatOps F]
variable (W : Valuation τ sig (Elt F))

/-- The host's logarithm of a row softmax, as the outlined function spells it: the row maximum from −∞ (and once more against a
    splat of −∞), the difference, its exponential summed along the row from zero, the logarithm, the difference. -/
def hostLogSoftmax (z : (⟨S100000x16, .f32⟩ : BufTy).Contents (Elt F)) : (⟨S100000x16, .f32⟩ : BufTy).Contents (Elt F) :=
  subf (subf z (broadcastInDim S100000x16 ![0, 1] Facts₀.bcast_S100000x1_S100000x16_0_1 (broadcastInDim S100000x1 ![0] Facts₀.bcast_S100000_S100000x1_0
      (maximumf (broadcastInDim S100000 ![] Facts₀.bcast_S_S100000 (constant S_ .f32 0xFF800000#32))
        (Host.reduce FloatOps.maximumf z (constant S_ .f32 0xFF800000#32) Facts₀.reducesTo_S100000x16_S100000_d1 Facts₀.h_S_)))))
    (broadcastInDim S100000x16 ![0, 1] Facts₀.bcast_S100000x1_S100000x16_0_1 (Host.log (broadcastInDim S100000x1 ![0] Facts₀.bcast_S100000_S100000x1_0
      (Host.reduceAdd (Host.exp (subf z (broadcastInDim S100000x16 ![0, 1] Facts₀.bcast_S100000x1_S100000x16_0_1 (broadcastInDim S100000x1 ![0] Facts₀.bcast_S100000_S100000x1_0
        (maximumf (broadcastInDim S100000 ![] Facts₀.bcast_S_S100000 (constant S_ .f32 0xFF800000#32))
          (Host.reduce FloatOps.maximumf z (constant S_ .f32 0xFF800000#32) Facts₀.reducesTo_S100000x16_S100000_d1 Facts₀.h_S_))))))
        (constant S_ .f32 0x00000000#32) Facts₀.reducesTo_S100000x16_S100000_d1 Facts₀.h_S_))))

set_option maxHeartbeats 40000000 in
/-- The first stage leaves the source list with its self-loops. -/
theorem weights_sources : after opsWeights W (Proc.devRef .tc main_v6) = withLoops (edgeRow0 (W (Proc.devRef .tc main_arg1))) := by
  dsimp only [opsWeights]
  after_results_simp
  try (first | rfl | (simp only [Cert.Lib.Outlined.ofBuf_toBuf, Cert.Lib.Outlined.toBuf_ofBuf]; rfl))
set_option maxHeartbeats 40000000 in
/-- … the target list. -/
theorem weights_targets : after opsWeights W (Proc.devRef .tc main_v7) = withLoops (edgeRow1 (W (Proc.devRef .tc main_arg1))) := by
  dsimp only [opsWeights]
  after_results_simp
  try (first | rfl | (simp only [Cert.Lib.Outlined.ofBuf_toBuf, Cert.Lib.Outlined.toBuf_ofBuf]; rfl))
set_option maxHeartbeats 40000000 in
/-- … every edge's weight. -/
theorem weights_value : after opsWeights W (Proc.devRef .tc main_v30) = edgeWeight (withLoops (edgeRow0 (W (Proc.devRef .tc main_arg1)))) (withLoops (edgeRow1 (W (Proc.devRef .tc main_arg1)))) := by
  dsimp only [opsWeights]
  after_results_simp
  try (first | rfl | (simp only [Cert.Lib.Outlined.ofBuf_toBuf, Cert.Lib.Outlined.toBuf_ofBuf]; rfl))
set_option maxHeartbeats 40000000 in
/-- … the sources without loops. -/
theorem weights_row0 : after opsWeights W (Proc.devRef .tc main_v1) = edgeRow0 (W (Proc.devRef .tc main_arg1)) := by
  dsimp only [opsWeights]
  after_results_simp
  try (first | rfl | (simp only [Cert.Lib.Outlined.ofBuf_toBuf, Cert.Lib.Outlined.toBuf_ofBuf]; rfl))
set_option maxHeartbeats 40000000 in
/-- … the targets without loops. -/
theorem weights_row1 : after opsWeights W (Proc.devRef .tc main_v3) = edgeRow1 (W (Proc.devRef .tc main_arg1)) := by
  dsimp only [opsWeights]
  after_results_simp
  try (first | rfl | (simp only [Cert.Lib.Outlined.ofBuf_toBuf, Cert.Lib.Outlined.toBuf_ofBuf]; rfl))
set_option maxHeartbeats 40000000 in
/-- … and the first product. -/
theorem weights_product : after opsWeights W (Proc.devRef .tc main_v4) = Host.dotGeneral dot_S100000x512_S512x32_S100000x32_1_0_0_1_n_n none (W (Proc.devRef .tc main_arg0)) (W (Proc.devRef .tc main_arg2)) := by
  dsimp only [opsWeights]
  after_results_simp
  try (first | rfl | (simp only [Cert.Lib.Outlined.ofBuf_toBuf, Cert.Lib.Outlined.toBuf_ofBuf]; rfl))
set_option maxHeartbeats 40000000 in
/-- It writes no argument. -/
theorem weights_keeps_arg3 : after opsWeights W (Proc.devRef .tc main_arg3) = W (Proc.devRef .tc main_arg3) := by
  dsimp only [opsWeights]
  after_results_simp
  try (first | rfl | (simp only [Cert.Lib.Outlined.ofBuf_toBuf, Cert.Lib.Outlined.toBuf_ofBuf]; rfl))
set_option maxHeartbeats 40000000 in
/-- It writes no argument. -/
theorem weights_keeps_arg4 : after opsWeights W (Proc.devRef .tc main_arg4) = W (Proc.devRef .tc main_arg4) := by
  dsimp only [opsWeights]
  after_results_simp
  try (first | rfl | (simp only [Cert.Lib.Outlined.ofBuf_toBuf, Cert.Lib.Outlined.toBuf_ofBuf]; rfl))
set_option maxHeartbeats 40000000 in
/-- It writes no argument. -/
theorem weights_keeps_arg5 : after opsWeights W (Proc.devRef .tc main_arg5) = W (Proc.devRef .tc main_arg5) := by
  dsimp only [opsWeights]
  after_results_simp
  try (first | rfl | (simp only [Cert.Lib.Outlined.ofBuf_toBuf, Cert.Lib.Outlined.toBuf_ofBuf]; rfl))
set_option maxHeartbeats 40000000 in
/-- The second stage is the aggregation of what it finds. -/
theorem aggregate1_value : after opsAggregate1 W (Proc.devRef .tc main_v43) = aggregate32 (W (Proc.devRef .tc main_v6)) (W (Proc.devRef .tc main_v7)) (W (Proc.devRef .tc main_v30)) (W (Proc.devRef .tc main_v4)) := by
  dsimp only [opsAggregate1]
  after_results_simp
  try (first | rfl | (simp only [Cert.Lib.Outlined.ofBuf_toBuf, Cert.Lib.Outlined.toBuf_ofBuf]; rfl))
set_option maxHeartbeats 40000000 in
/-- It writes none of the buffers the later stages read. -/
theorem aggregate1_keeps_v1 : after opsAggregate1 W (Proc.devRef .tc main_v1) = W (Proc.devRef .tc main_v1) := by
  dsimp only [opsAggregate1]
  after_results_simp
  try (first | rfl | (simp only [Cert.Lib.Outlined.ofBuf_toBuf, Cert.Lib.Outlined.toBuf_ofBuf]; rfl))
set_option maxHeartbeats 40000000 in
/-- It writes none of the buffers the later stages read. -/
theorem aggregate1_keeps_v3 : after opsAggregate1 W (Proc.devRef .tc main_v3) = W (Proc.devRef .tc main_v3) := by
  dsimp only [opsAggregate1]
  after_results_simp
  try (first | rfl | (simp only [Cert.Lib.Outlined.ofBuf_toBuf, Cert.Lib.Outlined.toBuf_ofBuf]; rfl))
set_option maxHeartbeats 40000000 in
/-- It writes none of the buffers the later stages read. -/
theorem aggregate1_keeps_arg3 : after opsAggregate1 W (Proc.devRef .tc main_arg3) = W (Proc.devRef .tc main_arg3) := by
  dsimp only [opsAggregate1]
  after_results_simp
  try (first | rfl | (simp only [Cert.Lib.Outlined.ofBuf_toBuf, Cert.Lib.Outlined.toBuf_ofBuf]; rfl))
set_option maxHeartbeats 40000000 in
/-- It writes none of the buffers the later stages read. -/
theorem aggregate1_keeps_arg4 : after opsAggregate1 W (Proc.devRef .tc main_arg4) = W (Proc.devRef .tc main_arg4) := by
  dsimp only [opsAggregate1]
  after_results_simp
  try (first | rfl | (simp only [Cert.Lib.Outlined.ofBuf_toBuf, Cert.Lib.Outlined.toBuf_ofBuf]; rfl))
set_option maxHeartbeats 40000000 in
/-- It writes none of the buffers the later stages read. -/
theorem aggregate1_keeps_arg5 : after opsAggregate1 W (Proc.devRef .tc main_arg5) = W (Proc.devRef .tc main_arg5) := by
  dsimp only [opsAggregate1]
  after_results_simp
  try (first | rfl | (simp only [Cert.Lib.Outlined.ofBuf_toBuf, Cert.Lib.Outlined.toBuf_ofBuf]; rfl))
set_option maxHeartbeats 40000000 in
/-- The third stage: the bias row over the rows, then the maximum with a splat of zero. -/
theorem hidden_value : after opsHidden W (Proc.devRef .tc main_v47) = maximumf (addf (W (Proc.devRef .tc main_v43)) (broadcastInDim S100000x32 ![0, 1] Facts₀.bcast_S1x32_S100000x32_0_1 (broadcastInDim S1x32 ![1] Facts₀.bcast_S32_S1x32_1 (W (Proc.devRef .tc main_arg3))))) (broadcastInDim S100000x32 ![] Facts₀.bcast_S_S100000x32 (constant S_ .f32 0x00000000#32)) := by
  dsimp only [opsHidden]
  after_results_simp
  try (first | rfl | (simp only [Cert.Lib.Outlined.ofBuf_toBuf, Cert.Lib.Outlined.toBuf_ofBuf]; rfl))
set_option maxHeartbeats 40000000 in
/-- It writes none of the buffers the later stages read. -/
theorem hidden_keeps_v1 : after opsHidden W (Proc.devRef .tc main_v1) = W (Proc.devRef .tc main_v1) := by
  dsimp only [opsHidden]
  after_results_simp
  try (first | rfl | (simp only [Cert.Lib.Outlined.ofBuf_toBuf, Cert.Lib.Outlined.toBuf_ofBuf]; rfl))
set_option maxHeartbeats 40000000 in
/-- It writes none of the buffers the later stages read. -/
theorem hidden_keeps_v3 : after opsHidden W (Proc.devRef .tc main_v3) = W (Proc.devRef .tc main_v3) := by
  dsimp only [opsHidden]
  after_results_simp
  try (first | rfl | (simp only [Cert.Lib.Outlined.ofBuf_toBuf, Cert.Lib.Outlined.toBuf_ofBuf]; rfl))
set_option maxHeartbeats 40000000 in
/-- It writes none of the buffers the later stages read. -/
theorem hidden_keeps_arg4 : after opsHidden W (Proc.devRef .tc main_arg4) = W (Proc.devRef .tc main_arg4) := by
  dsimp only [opsHidden]
  after_results_simp
  try (first | rfl | (simp only [Cert.Lib.Outlined.ofBuf_toBuf, Cert.Lib.Outlined.toBuf_ofBuf]; rfl))
set_option maxHeartbeats 40000000 in
/-- It writes none of the buffers the later stages read. -/
theorem hidden_keeps_arg5 : after opsHidden W (Proc.devRef .tc main_arg5) = W (Proc.devRef .tc main_arg5) := by
  dsimp only [opsHidden]
  after_results_simp
  try (first | rfl | (simp only [Cert.Lib.Outlined.ofBuf_toBuf, Cert.Lib.Outlined.toBuf_ofBuf]; rfl))
set_option maxHeartbeats 40000000 in
/-- The fourth stage: the second product. -/
theorem product2_value : after opsProduct2 W (Proc.devRef .tc main_v48) = Host.dotGeneral dot_S100000x32_S32x16_S100000x16_1_0_0_1_n_n none (W (Proc.devRef .tc main_v47)) (W (Proc.devRef .tc main_arg4)) := by
  dsimp only [opsProduct2]
  after_results_simp
  try (first | rfl | (simp only [Cert.Lib.Outlined.ofBuf_toBuf, Cert.Lib.Outlined.toBuf_ofBuf]; rfl))
set_option maxHeartbeats 40000000 in
/-- It writes none of the buffers the later stages read. -/
theorem product2_keeps_v1 : after opsProduct2 W (Proc.devRef .tc main_v1) = W (Proc.devRef .tc main_v1) := by
  dsimp only [opsProduct2]
  after_results_simp
  try (first | rfl | (simp only [Cert.Lib.Outlined.ofBuf_toBuf, Cert.Lib.Outlined.toBuf_ofBuf]; rfl))
set_option maxHeartbeats 40000000 in
/-- It writes none of the buffers the later stages read. -/
theorem product2_keeps_v3 : after opsProduct2 W (Proc.devRef .tc main_v3) = W (Proc.devRef .tc main_v3) := by
  dsimp only [opsProduct2]
  after_results_simp
  try (first | rfl | (simp only [Cert.Lib.Outlined.ofBuf_toBuf, Cert.Lib.Outlined.toBuf_ofBuf]; rfl))
set_option maxHeartbeats 40000000 in
/-- It writes none of the buffers the later stages read. -/
theorem product2_keeps_arg5 : after opsProduct2 W (Proc.devRef .tc main_arg5) = W (Proc.devRef .tc main_arg5) := by
  dsimp only [opsProduct2]
  after_results_simp
  try (first | rfl | (simp only [Cert.Lib.Outlined.ofBuf_toBuf, Cert.Lib.Outlined.toBuf_ofBuf]; rfl))
set_option maxHeartbeats 40000000 in
/-- The fifth stage computes the same lists and weights again, from the rows the first stage left. -/
theorem weights2_sources : after opsWeights2 W (Proc.devRef .tc main_v50) = withLoops (W (Proc.devRef .tc main_v1)) := by
  dsimp only [opsWeights2]
  after_results_simp
  try (first | rfl | (simp only [Cert.Lib.Outlined.ofBuf_toBuf, Cert.Lib.Outlined.toBuf_ofBuf]; rfl))
set_option maxHeartbeats 40000000 in
/-- … the target list. -/
theorem weights2_targets : after opsWeights2 W (Proc.devRef .tc main_v51) = withLoops (W (Proc.devRef .tc main_v3)) := by
  dsimp only [opsWeights2]
  after_results_simp
  try (first | rfl | (simp only [Cert.Lib.Outlined.ofBuf_toBuf, Cert.Lib.Outlined.toBuf_ofBuf]; rfl))
set_option maxHeartbeats 40000000 in
/-- … every edge's weight. -/
theorem weights2_value : after opsWeights2 W (Proc.devRef .tc main_v74) = edgeWeight (withLoops (W (Proc.devRef .tc main_v1))) (withLoops (W (Proc.devRef .tc main_v3))) := by
  dsimp only [opsWeights2]
  after_results_simp
  try (first | rfl | (simp only [Cert.Lib.Outlined.ofBuf_toBuf, Cert.Lib.Outlined.toBuf_ofBuf]; rfl))
set_option maxHeartbeats 40000000 in
/-- It writes none of the buffers the later stages read. -/
theorem weights2_keeps_v48 : after opsWeights2 W (Proc.devRef .tc main_v48) = W (Proc.devRef .tc main_v48) := by
  dsimp only [opsWeights2]
  after_results_simp
  try (first | rfl | (simp only [Cert.Lib.Outlined.ofBuf_toBuf, Cert.Lib.Outlined.toBuf_ofBuf]; rfl))
set_option maxHeartbeats 40000000 in
/-- It writes none of the buffers the later stages read. -/
theorem weights2_keeps_arg5 : after opsWeights2 W (Proc.devRef .tc main_arg5) = W (Proc.devRef .tc main_arg5) := by
  dsimp only [opsWeights2]
  after_results_simp
  try (first | rfl | (simp only [Cert.Lib.Outlined.ofBuf_toBuf, Cert.Lib.Outlined.toBuf_ofBuf]; rfl))
set_option maxHeartbeats 40000000 in
/-- The sixth stage is the aggregation of what it finds. -/
theorem aggregate2_value : after opsAggregate2 W (Proc.devRef .tc main_v87) = aggregate16 (W (Proc.devRef .tc main_v50)) (W (Proc.devRef .tc main_v51)) (W (Proc.devRef .tc main_v74)) (W (Proc.devRef .tc main_v48)) := by
  dsimp only [opsAggregate2]
  after_results_simp
  try (first | rfl | (simp only [Cert.Lib.Outlined.ofBuf_toBuf, Cert.Lib.Outlined.toBuf_ofBuf]; rfl))
set_option maxHeartbeats 40000000 in
/-- It does not write the output bias. -/
theorem aggregate2_keeps_arg5 : after opsAggregate2 W (Proc.devRef .tc main_arg5) = W (Proc.devRef .tc main_arg5) := by
  dsimp only [opsAggregate2]
  after_results_simp
  try (first | rfl | (simp only [Cert.Lib.Outlined.ofBuf_toBuf, Cert.Lib.Outlined.toBuf_ofBuf]; rfl))
set_option maxHeartbeats 40000000 in
/-- The last stage: the bias row over the rows, then the logarithm of the row softmax. -/
theorem output_value : after opsOutput W (Proc.devRef .tc main_v91) = hostLogSoftmax (addf (W (Proc.devRef .tc main_v87)) (broadcastInDim S100000x16 ![0, 1] Facts₀.bcast_S1x16_S100000x16_0_1 (broadcastInDim S1x16 ![1] Facts₀.bcast_S16_S1x16_1 (W (Proc.devRef .tc main_arg5))))) := by
  dsimp only [opsOutput]
  after_results_simp
  simp only [Cert.Lib.Outlined.ofBuf_toBuf, Cert.Lib.Outlined.toBuf_ofBuf]
  rfl

end Cert.ReferenceIdeal.StageValues

end
-- ==== Proof.LibDenseStepsHost.lean ====
/-
  The three dense steps of the network as the reference program spells them on whole arrays.

  The reference works on whole arrays at once. It forms a matrix product with a contraction of the left factor's
  columns against the right factor's rows; it adds a bias by first setting a vector of `H` entries as a one-row array
  and then repeating that row over all `n` rows; and it takes the positive part as a maximum with the number zero
  repeated over the whole array. Read at one entry `(r, q)`, over the extended reals, these are
  `Σ_k X[r,k] · W[k,q]`, `A[r,q] + b[q]` and `max Y[r,q] 0`: the entry-by-entry steps of the specification. The sizes
  play no part, so the statements hold for any number of rows and any widths.
-/
import proofs.«123936_j77275051590253_1_alg».proof.Proof.LibDenseSteps
import proofs.«123936_j77275051590253_1_alg».proof.Proof.LibRowLayerOps

noncomputable section

open scoped BigOperators

namespace Gcn.DenseHost

open Idealize.ShloMosaic Idealize.ShloMosaic.ValueIdx Gcn.Layers Gcn.LayerOps Gcn.Steps

variable {n K H : ℕ}

/-- The whole-array matrix product with the plain dimension numbers is the specification's product: entry `(r, q)` is
    `Σ_k X[r,k] · W[k,q]`. -/
theorem product_host (D : DotDims ⟨2, ![n, K]⟩ ⟨2, ![K, H]⟩ ⟨2, ![n, H]⟩) (hD : D = DotDims.plain n K H)
    (X : FVec Ideal ⟨2, ![n, K]⟩ .f32) (W : FVec Ideal ⟨2, ![K, H]⟩ .f32) :
    Host.dotGeneral D none X W = Gcn.Steps.product X W := by
  funext j
  obtain ⟨p, q, rfl⟩ : ∃ (p : Fin n) (q : Fin H), j = ix2 p q := ⟨j 0, j 1, eq_ix2 j⟩
  exact (Cert.Lib.DotColsHost.dotGeneral_cols_apply D hD none .single X W p q).trans
    (Gcn.Steps.product_apply X W p q).symm

/-- A vector set as one row and repeated over the rows, added to an array, is the specification's bias step with
    that vector as its one-row array: entry `(r, q)` is `A[r,q] + b[q]`. -/
theorem addRow_host (h1 : (⟨1, ![H]⟩ : Shape).BroadcastsInDim ⟨2, ![1, H]⟩ ![1])
    (h2 : (⟨2, ![1, H]⟩ : Shape).BroadcastsInDim ⟨2, ![n, H]⟩ ![0, 1])
    (A : FVec Ideal ⟨2, ![n, H]⟩ .f32) (b : FVec Ideal ⟨1, ![H]⟩ .f32) :
    addf A (broadcastInDim ⟨2, ![n, H]⟩ ![0, 1] h2 (broadcastInDim ⟨2, ![1, H]⟩ ![1] h1 b)) = Gcn.Steps.addRow A (Gcn.LayerOps.row b) := by
  funext j
  obtain ⟨p, q, rfl⟩ : ∃ (p : Fin n) (q : Fin H), j = ix2 p q := ⟨j 0, j 1, eq_ix2 j⟩
  refine Eq.trans ?_ (Gcn.Steps.addRow_apply A (Gcn.LayerOps.row b) p q).symm
  exact congrArg (A (ix2 p q) + ·) (Gcn.LayerOps.bias_rows_apply b h1 h2 p q)

/-- The maximum with zero repeated over the array is the specification's positive part: entry `(r, q)` is
    `max Y[r,q] 0`. -/
theorem relu_host (h0 : (⟨0, ![]⟩ : Shape).BroadcastsInDim ⟨2, ![n, H]⟩ ![]) (Y : FVec Ideal ⟨2, ![n, H]⟩ .f32) :
    maximumf Y (broadcastInDim ⟨2, ![n, H]⟩ ![] h0 (constant (F := Ideal) ⟨0, ![]⟩ .f32 0x00000000#32)) = Gcn.Steps.relu Y := by
  funext j
  obtain ⟨p, q, rfl⟩ : ∃ (p : Fin n) (q : Fin H), j = ix2 p q := ⟨j 0, j 1, eq_ix2 j⟩
  refine Eq.trans ?_ (Gcn.Steps.relu_apply Y p q).symm
  exact congrArg (max (Y (ix2 p q)) ·) (Gcn.LayerOps.zeros_apply ⟨2, ![n, H]⟩ h0 (ix2 p q))

end Gcn.DenseHost

end
-- ==== Proof.RefValue.lean ====
/-
  The idealized reference's result as a function of its arguments.

  Following the contents from stage to stage: the first stage leaves the edge lists `s`, `d`, the edge weights `w` and `x · W1`
  (the host's matrix product is the sum over the contracted axis, entry by entry); the second aggregates; the third adds the hidden
  bias row and takes the positive part (the maximum with a splat of zero); the fourth is the product with `W2`; the fifth computes
  `s`, `d`, `w` again — the same functions of the same edge array, hence the same values; the sixth aggregates; the last adds the
  output bias row and takes the logarithm of the row softmax (the host's extra maximum with a splat of −∞ changes nothing).
-/
import proofs.«123936_j77275051590253_1_alg».proof.Proof.RefStages
import proofs.«123936_j77275051590253_1_alg».proof.Proof.LibDenseStepsHost
import proofs.«123936_j77275051590253_1_alg».proof.Proof.LibLogSoftmaxRows

set_option maxRecDepth 16384

noncomputable section

namespace Cert.ReferenceIdeal.Network

open Cert.ReferenceIdeal Cert.ReferenceIdeal.Gen Cert.ReferenceIdeal.Stages Cert.ReferenceIdeal.StageValues
open Idealize.ShloMosaic Idealize.ShloMosaic.TcCoe Idealize.SL.Sem Idealize.ShloMosaic.StableHlo Gcn.Host Gcn.DenseHost

variable (m : (ℓ : Loc nD τ sig) → Buf (Elt Ideal) ℓ) (c : Dev nD)

/-- The contents after each of the first six stages, from the launch contents. -/
abbrev U0 : Valuation τ sig (Elt Ideal) := launchContents m c
abbrev U1 : Valuation τ sig (Elt Ideal) := after opsWeights (U0 m c)
abbrev U2 : Valuation τ sig (Elt Ideal) := after opsAggregate1 (U1 m c)
abbrev U3 : Valuation τ sig (Elt Ideal) := after opsHidden (U2 m c)
abbrev U4 : Valuation τ sig (Elt Ideal) := after opsProduct2 (U3 m c)
abbrev U5 : Valuation τ sig (Elt Ideal) := after opsWeights2 (U4 m c)
abbrev U6 : Valuation τ sig (Elt Ideal) := after opsAggregate2 (U5 m c)

/-- The host's logarithm of a row softmax is the logarithm of the row softmax. -/
theorem hostLogSoftmax_eq (z : (⟨S100000x16, .f32⟩ : BufTy).Contents (Elt Ideal)) :
    hostLogSoftmax (F := Ideal) z = Gcn.Layers.logSoftmaxRows (n := 100000) (C := 16) z := by
  unfold hostLogSoftmax
  exact Gcn.SoftmaxOps.host_logSoftmaxRows Facts₀.reducesTo_S100000x16_S100000_d1 (by decide) Facts₀.h_S_ Facts₀.bcast_S_S100000
    Facts₀.bcast_S100000_S100000x1_0 Facts₀.bcast_S100000x1_S100000x16_0_1 z

/-! ## After the first stage -/

theorem s1_sources : U1 m c (Proc.devRef .tc main_v6) = (withLoops (edgeRow0 (m ((c : Thread nD τ).loc main_arg1)))) := weights_sources (U0 m c)
theorem s1_targets : U1 m c (Proc.devRef .tc main_v7) = (withLoops (edgeRow1 (m ((c : Thread nD τ).loc main_arg1)))) := weights_targets (U0 m c)
theorem s1_weights : U1 m c (Proc.devRef .tc main_v30) = (edgeWeight (withLoops (edgeRow0 (m ((c : Thread nD τ).loc main_arg1)))) (withLoops (edgeRow1 (m ((c : Thread nD τ).loc main_arg1))))) := weights_value (U0 m c)
theorem s1_row0 : U1 m c (Proc.devRef .tc main_v1) = edgeRow0 (m ((c : Thread nD τ).loc main_arg1)) := weights_row0 (U0 m c)
theorem s1_row1 : U1 m c (Proc.devRef .tc main_v3) = edgeRow1 (m ((c : Thread nD τ).loc main_arg1)) := weights_row1 (U0 m c)
theorem s1_product : U1 m c (Proc.devRef .tc main_v4) = (Gcn.Steps.product (n := 100000) (K := 512) (H := 32) (m ((c : Thread nD τ).loc main_arg0)) (m ((c : Thread nD τ).loc main_arg2))) :=
  (weights_product (U0 m c)).trans (product_host dot_S100000x512_S512x32_S100000x32_1_0_0_1_n_n rfl _ _)
theorem s1_arg3 : U1 m c (Proc.devRef .tc main_arg3) = m ((c : Thread nD τ).loc main_arg3) := weights_keeps_arg3 (U0 m c)
theorem s1_arg4 : U1 m c (Proc.devRef .tc main_arg4) = m ((c : Thread nD τ).loc main_arg4) := weights_keeps_arg4 (U0 m c)
theorem s1_arg5 : U1 m c (Proc.devRef .tc main_arg5) = m ((c : Thread nD τ).loc main_arg5) := weights_keeps_arg5 (U0 m c)

/-! ## After the second stage: the first aggregation -/

theorem s2_aggregate : U2 m c (Proc.devRef .tc main_v43) = (aggregate32 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 512) (H := 32) (m ((c : Thread nD τ).loc main_arg0)) (m ((c : Thread nD τ).loc main_arg2)))) := by
  rw [show U2 m c (Proc.devRef .tc main_v43) = _ from aggregate1_value (U1 m c), s1_sources, s1_targets, s1_weights, s1_product]
theorem s2_row0 : U2 m c (Proc.devRef .tc main_v1) = edgeRow0 (m ((c : Thread nD τ).loc main_arg1)) := (aggregate1_keeps_v1 (U1 m c)).trans (s1_row0 m c)
theorem s2_row1 : U2 m c (Proc.devRef .tc main_v3) = edgeRow1 (m ((c : Thread nD τ).loc main_arg1)) := (aggregate1_keeps_v3 (U1 m c)).trans (s1_row1 m c)
theorem s2_arg3 : U2 m c (Proc.devRef .tc main_arg3) = m ((c : Thread nD τ).loc main_arg3) := (aggregate1_keeps_arg3 (U1 m c)).trans (s1_arg3 m c)
theorem s2_arg4 : U2 m c (Proc.devRef .tc main_arg4) = m ((c : Thread nD τ).loc main_arg4) := (aggregate1_keeps_arg4 (U1 m c)).trans (s1_arg4 m c)
theorem s2_arg5 : U2 m c (Proc.devRef .tc main_arg5) = m ((c : Thread nD τ).loc main_arg5) := (aggregate1_keeps_arg5 (U1 m c)).trans (s1_arg5 m c)

/-! ## After the third stage: the hidden layer -/

theorem s3_hidden : U3 m c (Proc.devRef .tc main_v47) = (Gcn.Steps.relu (Gcn.Steps.addRow (n := 100000) (H := 32) (aggregate32 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 512) (H := 32) (m ((c : Thread nD τ).loc main_arg0)) (m ((c : Thread nD τ).loc main_arg2)))) (Gcn.LayerOps.row (m ((c : Thread nD τ).loc main_arg3))))) := by
  rw [show U3 m c (Proc.devRef .tc main_v47) = _ from hidden_value (U2 m c), s2_aggregate, s2_arg3]
  exact (relu_host Facts₀.bcast_S_S100000x32 _).trans
    (congrArg Gcn.Steps.relu (addRow_host Facts₀.bcast_S32_S1x32_1 Facts₀.bcast_S1x32_S100000x32_0_1 _ _))
theorem s3_row0 : U3 m c (Proc.devRef .tc main_v1) = edgeRow0 (m ((c : Thread nD τ).loc main_arg1)) := (hidden_keeps_v1 (U2 m c)).trans (s2_row0 m c)
theorem s3_row1 : U3 m c (Proc.devRef .tc main_v3) = edgeRow1 (m ((c : Thread nD τ).loc main_arg1)) := (hidden_keeps_v3 (U2 m c)).trans (s2_row1 m c)
theorem s3_arg4 : U3 m c (Proc.devRef .tc main_arg4) = m ((c : Thread nD τ).loc main_arg4) := (hidden_keeps_arg4 (U2 m c)).trans (s2_arg4 m c)
theorem s3_arg5 : U3 m c (Proc.devRef .tc main_arg5) = m ((c : Thread nD τ).loc main_arg5) := (hidden_keeps_arg5 (U2 m c)).trans (s2_arg5 m c)

/-! ## After the fourth stage: the second product -/

theorem s4_product : U4 m c (Proc.devRef .tc main_v48) = (Gcn.Steps.product (n := 100000) (K := 32) (H := 16) (Gcn.Steps.relu (Gcn.Steps.addRow (n := 100000) (H := 32) (aggregate32 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 512) (H := 32) (m ((c : Thread nD τ).loc main_arg0)) (m ((c : Thread nD τ).loc main_arg2)))) (Gcn.LayerOps.row (m ((c : Thread nD τ).loc main_arg3))))) (m ((c : Thread nD τ).loc main_arg4))) := by
  rw [show U4 m c (Proc.devRef .tc main_v48) = _ from product2_value (U3 m c), s3_hidden, s3_arg4]
  exact product_host dot_S100000x32_S32x16_S100000x16_1_0_0_1_n_n rfl _ _
theorem s4_row0 : U4 m c (Proc.devRef .tc main_v1) = edgeRow0 (m ((c : Thread nD τ).loc main_arg1)) := (product2_keeps_v1 (U3 m c)).trans (s3_row0 m c)
theorem s4_row1 : U4 m c (Proc.devRef .tc main_v3) = edgeRow1 (m ((c : Thread nD τ).loc main_arg1)) := (product2_keeps_v3 (U3 m c)).trans (s3_row1 m c)
theorem s4_arg5 : U4 m c (Proc.devRef .tc main_arg5) = m ((c : Thread nD τ).loc main_arg5) := (product2_keeps_arg5 (U3 m c)).trans (s3_arg5 m c)

/-! ## After the fifth stage: the same edge lists and weights again -/

theorem s5_sources : U5 m c (Proc.devRef .tc main_v50) = (withLoops (edgeRow0 (m ((c : Thread nD τ).loc main_arg1)))) := by
  rw [show U5 m c (Proc.devRef .tc main_v50) = _ from weights2_sources (U4 m c), s4_row0]
theorem s5_targets : U5 m c (Proc.devRef .tc main_v51) = (withLoops (edgeRow1 (m ((c : Thread nD τ).loc main_arg1)))) := by
  rw [show U5 m c (Proc.devRef .tc main_v51) = _ from weights2_targets (U4 m c), s4_row1]
theorem s5_weights : U5 m c (Proc.devRef .tc main_v74) = (edgeWeight (withLoops (edgeRow0 (m ((c : Thread nD τ).loc main_arg1)))) (withLoops (edgeRow1 (m ((c : Thread nD τ).loc main_arg1))))) := by
  rw [show U5 m c (Proc.devRef .tc main_v74) = _ from weights2_value (U4 m c), s4_row0, s4_row1]
theorem s5_product : U5 m c (Proc.devRef .tc main_v48) = (Gcn.Steps.product (n := 100000) (K := 32) (H := 16) (Gcn.Steps.relu (Gcn.Steps.addRow (n := 100000) (H := 32) (aggregate32 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 512) (H := 32) (m ((c : Thread nD τ).loc main_arg0)) (m ((c : Thread nD τ).loc main_arg2)))) (Gcn.LayerOps.row (m ((c : Thread nD τ).loc main_arg3))))) (m ((c : Thread nD τ).loc main_arg4))) := (weights2_keeps_v48 (U4 m c)).trans (s4_product m c)
theorem s5_arg5 : U5 m c (Proc.devRef .tc main_arg5) = m ((c : Thread nD τ).loc main_arg5) := (weights2_keeps_arg5 (U4 m c)).trans (s4_arg5 m c)

/-! ## After the sixth stage: the second aggregation -/

theorem s6_aggregate : U6 m c (Proc.devRef .tc main_v87) = (aggregate16 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 32) (H := 16) (Gcn.Steps.relu (Gcn.Steps.addRow (n := 100000) (H := 32) (aggregate32 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 512) (H := 32) (m ((c : Thread nD τ).loc main_arg0)) (m ((c : Thread nD τ).loc main_arg2)))) (Gcn.LayerOps.row (m ((c : Thread nD τ).loc main_arg3))))) (m ((c : Thread nD τ).loc main_arg4)))) := by
  rw [show U6 m c (Proc.devRef .tc main_v87) = _ from aggregate2_value (U5 m c), s5_sources, s5_targets, s5_weights, s5_product]
theorem s6_arg5 : U6 m c (Proc.devRef .tc main_arg5) = m ((c : Thread nD τ).loc main_arg5) := (aggregate2_keeps_arg5 (U5 m c)).trans (s5_arg5 m c)

/-! ## The result -/

/-- The result buffer after the whole line, as the network's formula in the launch arguments. -/
theorem result : contents (launchContents m c) (Proc.devRef .tc main_v91) = Gcn.Layers.logSoftmaxRows (Gcn.Steps.addRow (n := 100000) (H := 16) (aggregate16 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 32) (H := 16) (Gcn.Steps.relu (Gcn.Steps.addRow (n := 100000) (H := 32) (aggregate32 (withLoops (edgeRow0 (m ((c : Thread nD τ).loc main_arg1)))) (withLoops (edgeRow1 (m ((c : Thread nD τ).loc main_arg1)))) (edgeWeight (withLoops (edgeRow0 (m ((c : Thread nD τ).loc main_arg1)))) (withLoops (edgeRow1 (m ((c : Thread nD τ).loc main_arg1))))) (Gcn.Steps.product (n := 100000) (K := 512) (H := 32) (m ((c : Thread nD τ).loc main_arg0)) (m ((c : Thread nD τ).loc main_arg2)))) (Gcn.LayerOps.row (m ((c : Thread nD τ).loc main_arg3))))) (m ((c : Thread nD τ).loc main_arg4)))) (Gcn.LayerOps.row (m ((c : Thread nD τ).loc main_arg5)))) := by
  show after opsOutput (U6 m c) (Proc.devRef .tc main_v91) = _
  rw [output_value (U6 m c), s6_aggregate, s6_arg5]
  exact (congrArg (hostLogSoftmax (F := Ideal)) (addRow_host Facts₀.bcast_S16_S1x16_1 Facts₀.bcast_S1x16_S100000x16_0_1 _ _)).trans
    (hostLogSoftmax_eq _)

end Cert.ReferenceIdeal.Network

end
-- ==== Proof.lean ====
/-
  A two-layer graph convolution, computed with four row-blocked grids, against its whole-array reference: the two idealized
  programs end with equal results over the extended reals.

  Both programs compute, from node features `x`, an edge array `e`, weights `W1`, `W2` and biases `b1`, `b2`,
      logsoftmax_rows ( Agg (relu (Agg (x · W1) + b1) · W2) + b2 ),
  where `Agg h` gathers, for every edge and every appended self-loop, the source node's row of `h`, scales it by
  `1/√deg(source) · 1/√deg(target)` (0 where a degree is 0) and adds it into the target node's row. The aggregation is spelled by
  the same host operations in both programs; the kernel differs only in computing the four dense steps — the two products, bias
  with positive part, bias with log-softmax — block by block over 25 blocks of 4000 rows, with matrix operands narrowed to a
  shorter float format first. Over the extended reals a change of float format is the identity, a product into a zero accumulator
  is the plain sum over the contracted axis, and each dense step reads one row at a time, so a step of a block of rows is the
  step of the whole array restricted to those rows and the 25 blocks tile the array. The host's logarithm of a softmax takes one
  more maximum against −∞, which changes nothing. No law used needs a finite input: the sums are finite sums in a commutative
  monoid, and nothing is distributed or cancelled.

  The three frames: the kernel's two are the generated frame proofs; the reference is a straight line of host operations, which
  always runs to the end and writes none of its arguments. The idealization rewrote no operation, so there is nothing to preserve.
-/
import proofs.«123936_j77275051590253_1_alg».proof.Defs
import proofs.«123936_j77275051590253_1_alg».proof.Proof.Gen.Kernel
import proofs.«123936_j77275051590253_1_alg».proof.Proof.Gen.Kernel.Frame
import proofs.«123936_j77275051590253_1_alg».proof.Proof.Gen.KernelIdeal
import proofs.«123936_j77275051590253_1_alg».proof.Proof.Gen.KernelIdeal.Frame
import proofs.«123936_j77275051590253_1_alg».proof.Proof.Gen.ReferenceIdeal
import proofs.«123936_j77275051590253_1_alg».proof.Proof.Gen.Pre_finite_inputs
import proofs.«123936_j77275051590253_1_alg».proof.Proof.KernelRun
import proofs.«123936_j77275051590253_1_alg».proof.Proof.KernelValue
import proofs.«123936_j77275051590253_1_alg».proof.Proof.RefRun
import proofs.«123936_j77275051590253_1_alg».proof.Proof.RefArgs
import proofs.«123936_j77275051590253_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: it runs to the end, and no operation writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.Stages.contents_arg0 _),
     (h c Cert.ReferenceIdeal.main_arg1).trans (Cert.ReferenceIdeal.Stages.contents_arg1 _),
     (h c Cert.ReferenceIdeal.main_arg2).trans (Cert.ReferenceIdeal.Stages.contents_arg2 _),
     (h c Cert.ReferenceIdeal.main_arg3).trans (Cert.ReferenceIdeal.Stages.contents_arg3 _),
     (h c Cert.ReferenceIdeal.main_arg4).trans (Cert.ReferenceIdeal.Stages.contents_arg4 _),
     (h c Cert.ReferenceIdeal.main_arg5).trans (Cert.ReferenceIdeal.Stages.contents_arg5 _)⟩)
    (Cert.ReferenceIdeal.Stages.run (F := Ideal) m ρ)

/-- The idealization rewrote no operation. -/
theorem preserves : Cert.preserves_Kernel_KernelIdeal := trivial

/-- From memories that agree on the six arguments both idealized programs run to the end with the same result: each result is
    the network's formula of the arguments (the kernel's with each bias reshaped to a row, the reference's with it read as a row —
    the same row), and the arguments agree. -/
theorem algebraic : Cert.algebraic_KernelIdeal_ReferenceIdeal := by
  intro m ρ m' ρ' _ hagree
  refine ⟨fun c => Cert.KernelIdeal.Gen.W9 m ρ c (Proc.devRef .tc Cert.KernelIdeal.main_v61), Cert.KernelIdeal.Run.run m ρ, ?_⟩
  refine (θ_run Cert.ReferenceIdeal.defs _ _).mono (fun r h c => ⟨?_,
      (h c Cert.ReferenceIdeal.main_arg0).trans (Cert.ReferenceIdeal.Stages.contents_arg0 _),
      (h c Cert.ReferenceIdeal.main_arg1).trans (Cert.ReferenceIdeal.Stages.contents_arg1 _),
      (h c Cert.ReferenceIdeal.main_arg2).trans (Cert.ReferenceIdeal.Stages.contents_arg2 _),
      (h c Cert.ReferenceIdeal.main_arg3).trans (Cert.ReferenceIdeal.Stages.contents_arg3 _),
      (h c Cert.ReferenceIdeal.main_arg4).trans (Cert.ReferenceIdeal.Stages.contents_arg4 _),
      (h c Cert.ReferenceIdeal.main_arg5).trans (Cert.ReferenceIdeal.Stages.contents_arg5 _)⟩)
    (Cert.ReferenceIdeal.Stages.run (F := Ideal) m' ρ')
  obtain ⟨e0, e1, e2, e3, e4, e5⟩ := hagree c
  have f0 : m' ((c : Thread Cert.ReferenceIdeal.nD Cert.ReferenceIdeal.τ).loc Cert.ReferenceIdeal.main_arg0) = m ((c : Thread Cert.KernelIdeal.nD Cert.KernelIdeal.τ).loc Cert.KernelIdeal.main_arg0) := e0
  have f1 : m' ((c : Thread Cert.ReferenceIdeal.nD Cert.ReferenceIdeal.τ).loc Cert.ReferenceIdeal.main_arg1) = m ((c : Thread Cert.KernelIdeal.nD Cert.KernelIdeal.τ).loc Cert.KernelIdeal.main_arg1) := e1
  have f2 : m' ((c : Thread Cert.ReferenceIdeal.nD Cert.ReferenceIdeal.τ).loc Cert.ReferenceIdeal.main_arg2) = m ((c : Thread Cert.KernelIdeal.nD Cert.KernelIdeal.τ).loc Cert.KernelIdeal.main_arg2) := e2
  have f3 : m' ((c : Thread Cert.ReferenceIdeal.nD Cert.ReferenceIdeal.τ).loc Cert.ReferenceIdeal.main_arg3) = m ((c : Thread Cert.KernelIdeal.nD Cert.KernelIdeal.τ).loc Cert.KernelIdeal.main_arg3) := e3
  have f4 : m' ((c : Thread Cert.ReferenceIdeal.nD Cert.ReferenceIdeal.τ).loc Cert.ReferenceIdeal.main_arg4) = m ((c : Thread Cert.KernelIdeal.nD Cert.KernelIdeal.τ).loc Cert.KernelIdeal.main_arg4) := e4
  have f5 : m' ((c : Thread Cert.ReferenceIdeal.nD Cert.ReferenceIdeal.τ).loc Cert.ReferenceIdeal.main_arg5) = m ((c : Thread Cert.KernelIdeal.nD Cert.KernelIdeal.τ).loc Cert.KernelIdeal.main_arg5) := e5
  refine (h c Cert.ReferenceIdeal.main_v91).trans ?_
  rw [Cert.ReferenceIdeal.Network.result m' c, f0, f1, f2, f3, f4, f5]
  refine Eq.trans ?_ (Cert.KernelIdeal.Value.result m ρ c).symm
  rw [Gcn.LayerOps.shapeCast_row, Gcn.LayerOps.shapeCast_row]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
